-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S2048x2048 : Shape := ⟨2, ![2048, 2048]⟩
abbrev S2048 : Shape := ⟨1, ![2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_arg15 : FVec F S2048x2048 .f32) (main_arg16 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  main_v83

def fn_part3 {F : FTy → Type} [FloatOps F] (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_v63 main_v67

def fn_part2 {F : FTy → Type} [FloatOps F] (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_v48 main_v49 main_v50

def fn_part1 {F : FTy → Type} [FloatOps F] (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S64x2048 .f32) (main_arg1 : FVec F S64x2048 .f32) (main_arg2 : FVec F S64x2048 .f32) (main_arg3 : FVec F S2048x2048 .f32) (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_arg15 : FVec F S2048x2048 .f32) (main_arg16 : FVec F S2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S64x2048 : Shape := ⟨2, ![64, 2048]⟩
abbrev S2048x2048 : Shape := ⟨2, ![2048, 2048]⟩
abbrev S2048 : Shape := ⟨1, ![2048]⟩
abbrev S64x256 : Shape := ⟨2, ![64, 256]⟩
abbrev S2048x256 : Shape := ⟨2, ![2048, 256]⟩
abbrev S256 : Shape := ⟨1, ![256]⟩
abbrev S1x256 : Shape := ⟨2, ![1, 256]⟩
abbrev S64x6144 : Shape := ⟨2, ![64, 6144]⟩

abbrev nBuf : Space → Nat
  | .hbm => 21
  | .vmem => 38
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S64x2048, .f32⟩
  | .hbm, ⟨18, _⟩ => ⟨S64x2048, .f32⟩
  | .hbm, ⟨19, _⟩ => ⟨S64x2048, .f32⟩
  | .hbm, ⟨20, _⟩ => ⟨S64x6144, .f32⟩
  | .local _ .vmem, ⟨0, _⟩ => ⟨S64x2048, .f32⟩
  | .local _ .vmem, ⟨1, _⟩ => ⟨S64x2048, .f32⟩
  | .local _ .vmem, ⟨2, _⟩ => ⟨S64x256, .f32⟩
  | .local _ .vmem, ⟨3, _⟩ => ⟨S64x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256, .f32⟩
  | .local _ .vmem, ⟨9, _⟩ => ⟨S256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S256, .f32⟩
  | .local _ .vmem, ⟨15, _⟩ => ⟨S256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S256, .f32⟩
  | .local _ .vmem, ⟨21, _⟩ => ⟨S256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S256, .f32⟩
  | .local _ .vmem, ⟨27, _⟩ => ⟨S256, .f32⟩
  | .local _ .vmem, ⟨28, _⟩ => ⟨S2048x256, .f32⟩
  | .local _ .vmem, ⟨29, _⟩ => ⟨S2048x256, .f32⟩
  | .local _ .vmem, ⟨30, _⟩ => ⟨S256, .f32⟩
  | .local _ .vmem, ⟨31, _⟩ => ⟨S256, .f32⟩
  | .local _ .vmem, ⟨32, _⟩ => ⟨S64x256, .f32⟩
  | .local _ .vmem, ⟨33, _⟩ => ⟨S64x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | .local _ .vmem, ⟨37, _⟩ => ⟨S64x256, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 1 → Nat :=
  let arg0 : BitVec 32 := BitVec.ofNat 32 (i 0).val
  let c0_i32 : BitVec 32 := 0#32
  ![arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 1 → Nat :=
  let arg0 : BitVec 32 := BitVec.ofNat 32 (i 0).val
  let c0_i32 : BitVec 32 := 0#32
  ![arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S64x256 : S1x256.Broadcasts S64x256
  concatenates_S64x2048_S64x2048_S64x2048_S64x6144_d1 : Shape.Concatenates [S64x2048, S64x2048, S64x2048] S64x6144 1
  dot_S64x2048_S2048x256_S64x256_1_0_0_1_n_n_wf : DotDims.WF S64x2048 S2048x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x2048.size a
  hwx0_2 : ∀ i : grid0.Coords, EltTy.bits .f32 = 32 ∨ (Rect.block (s := S64x2048) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S2048.size a
  hwx0_5 : ∀ i : grid0.Coords, EltTy.bits .f32 = 32 ∨ (Rect.block (s := S2048) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S2048.size a
  hwx0_8 : ∀ i : grid0.Coords, EltTy.bits .f32 = 32 ∨ (Rect.block (s := S2048) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .f32 = 32 ∨ (Rect.block (s := S2048x2048) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S2048.size a
  hwx0_11 : ∀ i : grid0.Coords, EltTy.bits .f32 = 32 ∨ (Rect.block (s := S2048) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x2048.size a
  hwx0_12 : ∀ i : grid0.Coords, EltTy.bits .f32 = 32 ∨ (Rect.block (s := S2048x2048) S2048x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S2048x2048.size a
  hwx0_13 : ∀ i : grid0.Coords, EltTy.bits .f32 = 32 ∨ (Rect.block (s := S2048x2048) S2048x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S2048.size a
  hwx0_14 : ∀ i : grid0.Coords, EltTy.bits .f32 = 32 ∨ (Rect.block (s := S2048) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x256.size a ≤ S2048x2048.size a
  hwx0_15 : ∀ i : grid0.Coords, EltTy.bits .f32 = 32 ∨ (Rect.block (s := S2048x2048) S2048x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S2048.size a
  hwx0_16 : ∀ i : grid0.Coords, EltTy.bits .f32 = 32 ∨ (Rect.block (s := S2048) S256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S64x256.size a ≤ S64x2048.size a
  hwx0_17 : ∀ i : grid0.Coords, EltTy.bits .f32 = 32 ∨ (Rect.block (s := S64x2048) S64x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S64x256.size a ≤ S64x2048.size a
  hwx0_18 : ∀ i : grid0.Coords, EltTy.bits .f32 = 32 ∨ (Rect.block (s := S64x2048) S64x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x256.size a ≤ S64x2048.size a
  hwx0_19 : ∀ i : grid0.Coords, EltTy.bits .f32 = 32 ∨ (Rect.block (s := S64x2048) S64x256.size (cc0_transform_19 i) (hinb0_19 i)).WholeWords (EltTy.packing .f32)

variable [Facts₀]

def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_arg1) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S2048x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S2048x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v0_0) S64x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v0_1) S64x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_2) S64x256.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S64x2048 : Shape := ⟨2, ![64, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S64x8192 : Shape := ⟨2, ![64, 8192]⟩
abbrev S1x8192 : Shape := ⟨2, ![1, 8192]⟩
abbrev S_ : Shape := ⟨0, ![]⟩
abbrev S1x2048 : Shape := ⟨2, ![1, 2048]⟩
abbrev S64x6144 : Shape := ⟨2, ![64, 6144]⟩

abbrev nBuf : Space → Nat
  | .hbm => 65
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x8192, .f32⟩
  | .hbm, ⟨18, _⟩ => ⟨S2048x8192, .f32⟩
  | .hbm, ⟨19, _⟩ => ⟨S8192, .f32⟩
  | .hbm, ⟨20, _⟩ => ⟨S64x8192, .f32⟩
  | .hbm, ⟨21, _⟩ => ⟨S64x8192, .f32⟩
  | .hbm, ⟨22, _⟩ => ⟨S64x8192, .f32⟩
  | .hbm, ⟨23, _⟩ => ⟨S1x8192, .f32⟩
  | .hbm, ⟨24, _⟩ => ⟨S64x8192, .f32⟩
  | .hbm, ⟨25, _⟩ => ⟨S64x8192, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S_, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S64x2048, .f32⟩
  | .hbm, ⟨37, _⟩ => ⟨S64x2048, .f32⟩
  | .hbm, ⟨38, _⟩ => ⟨S64x2048, .f32⟩
  | .hbm, ⟨39, _⟩ => ⟨S64x2048, .f32⟩
  | .hbm, ⟨40, _⟩ => ⟨S_, .f32⟩
  | .hbm, ⟨41, _⟩ => ⟨S64x2048, .f32⟩
  | .hbm, ⟨42, _⟩ => ⟨S64x2048, .f32⟩
  | .hbm, ⟨43, _⟩ => ⟨S_, .f32⟩
  | .hbm, ⟨44, _⟩ => ⟨S64x2048, .f32⟩
  | .hbm, ⟨45, _⟩ => ⟨S64x2048, .f32⟩
  | .hbm, ⟨46, _⟩ => ⟨S64x2048, .f32⟩
  | .hbm, ⟨47, _⟩ => ⟨S64x2048, .f32⟩
  | .hbm, ⟨48, _⟩ => ⟨S64x2048, .f32⟩
  | .hbm, ⟨49, _⟩ => ⟨S_, .f32⟩
  | .hbm, ⟨50, _⟩ => ⟨S64x2048, .f32⟩
  | .hbm, ⟨51, _⟩ => ⟨S64x2048, .f32⟩
  | .hbm, ⟨52, _⟩ => ⟨S_, .f32⟩
  | .hbm, ⟨53, _⟩ => ⟨S64x2048, .f32⟩
  | .hbm, ⟨54, _⟩ => ⟨S64x2048, .f32⟩
  | .hbm, ⟨55, _⟩ => ⟨S64x2048, .f32⟩
  | .hbm, ⟨56, _⟩ => ⟨S64x2048, .f32⟩
  | .hbm, ⟨57, _⟩ => ⟨S64x2048, .f32⟩
  | .hbm, ⟨58, _⟩ => ⟨S64x2048, .f32⟩
  | .hbm, ⟨59, _⟩ => ⟨S64x2048, .f32⟩
  | .hbm, ⟨60, _⟩ => ⟨S64x2048, .f32⟩
  | .hbm, ⟨61, _⟩ => ⟨S1x2048, .f32⟩
  | .hbm, ⟨62, _⟩ => ⟨S64x2048, .f32⟩
  | .hbm, ⟨63, _⟩ => ⟨S64x2048, .f32⟩
  | .hbm, ⟨64, _⟩ => ⟨S64x6144, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  slices_S64x8192_S64x2048_0_0 : S64x8192.Slices ![0, 0] S64x2048
  slices_S64x8192_S64x2048_0_2048 : S64x8192.Slices ![0, 2048] S64x2048
  slices_S64x8192_S64x2048_0_4096 : S64x8192.Slices ![0, 4096] S64x2048
  slices_S64x8192_S64x2048_0_6144 : S64x8192.Slices ![0, 6144] S64x2048
  bcast_S_S64x2048 : S_.BroadcastsInDim S64x2048 (![] : Fin 0 → Fin S64x2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  concatenates_S64x2048_S64x2048_S64x2048_S64x6144_d1 : Shape.Concatenates [S64x2048, S64x2048, S64x2048] S64x6144 1
  dot_S64x2048_S2048x8192_S64x8192_1_0_0_1_n_n_wf : DotDims.WF S64x2048 S2048x8192 S64x8192 [1] [0] [0] [1] [] []
  dot_S64x2048_S2048x2048_S64x2048_1_0_0_1_n_n_wf : DotDims.WF S64x2048 S2048x2048 S64x2048 [1] [0] [0] [1] [] []

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

class Facts : Prop extends Facts₀ where

variable [Facts]
-- ==== Proof.FrameBits.lean ====
/-
  The frame of the program: its one region on a grid of eight column blocks, followed by the one host line that joins
  the three results side by side.

  The body at a grid point reads the seventeen input blocks, stores three 64×256 blocks (the projection, the new hidden
  state, the new cell state), and names nothing else; its loads of the output buffers before each store are never used.
  So after the body each output buffer holds the one store's value as a function of the input blocks alone
  (`outY`, `outH`, `outC`), each input buffer still its block, and the run of the whole program leaves every
  argument array as launched, each result array at what the write-backs assemble, and the joined buffer at the host
  line's value of the three result arrays.
-/
import proofs.«162687_j11879879542513_2_alg».proof.Proof.Gen.Kernel.Launch
import proofs.«162687_j11879879542513_2_alg».proof.Proof.Gen.Kernel.Skeleton
import proofs.«162687_j11879879542513_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- A core's buffer contents when the region is entered: no host line comes before it, so the launch contents. -/
abbrev V0 (c : Dev nD) : Valuation τ sig (Elt F) :=
  StableHlo.after (List.flatten ([] : List (List (HloOp τ sig (Elt F))))) (fun b => m (c, b))
/-- The same read at a reference. -/
abbrev V (c : Dev nD) (b : Ref sig .tc) : Buf (Elt F) ((c : Thread nD τ).loc b) := V0 m c (Proc.devRef .tc b)

/-- Every buffer is found as launched. -/
theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor

/-- The program is its region continued by the joining line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The joining line touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes the joined buffer only, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current buffer holds its block at every point, fetched there or not. -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current buffer holds its block at every point, fetched there or not. -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every window's array at what the write-backs assemble: each argument array is an input
    window's, which no write-back touches, so it ends as the region found it, as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 1).trans (((dats 0 c).arrAt_in 1 rfl _).trans (hA c 1)),
      ((h c).1 0).trans (((dats 0 c).arrAt_in 0 rfl _).trans (hA c 0)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      ((h c).1 8).trans (((dats 0 c).arrAt_in 8 rfl _).trans (hA c 8)),
      ((h c).1 12).trans (((dats 0 c).arrAt_in 12 rfl _).trans (hA c 12)),
      ((h c).1 13).trans (((dats 0 c).arrAt_in 13 rfl _).trans (hA c 13)),
      ((h c).1 14).trans (((dats 0 c).arrAt_in 14 rfl _).trans (hA c 14)),
      ((h c).1 9).trans (((dats 0 c).arrAt_in 9 rfl _).trans (hA c 9)),
      ((h c).1 10).trans (((dats 0 c).arrAt_in 10 rfl _).trans (hA c 10)),
      ((h c).1 11).trans (((dats 0 c).arrAt_in 11 rfl _).trans (hA c 11)),
      ((h c).1 15).trans (((dats 0 c).arrAt_in 15 rfl _).trans (hA c 15)),
      ((h c).1 16).trans (((dats 0 c).arrAt_in 16 rfl _).trans (hA c 16))⟩) h

/-! ## The body's accesses -/

abbrev rH : Rect S64x2048 := Rect.unit (s := S64x2048) ![0, 0] S64x2048.size inb_S64x2048_S64x2048_0_0
abbrev rC : Rect S64x256 := Rect.unit (s := S64x256) ![0, 0] S64x256.size inb_S64x256_S64x256_0_0
abbrev rW : Rect S2048x256 := Rect.unit (s := S2048x256) ![0, 0] S2048x256.size inb_S2048x256_S2048x256_0_0
abbrev rB : Rect S256 := Rect.unit (s := S256) ![0] S256.size inb_S256_S256_0

/-! ## What the body leaves in each output buffer -/

/-- The projection's buffer after the body: its one store, of the previous hidden state's block, the projection
    weights' block and the projection bias's block. -/
def outY (x0 : Vec F S64x2048 .f32) (x15 : Vec F S2048x256 .f32) (x16 : Vec F S256 .f32) : Vec F S64x256 .f32 :=
  View.canon [⟨rC, k0_pay3 (k0_pay4 (View.ld x0 rH)) (View.ld x15 rW) (View.ld x16 rB)⟩]
/-- The new hidden state's buffer after the body. -/
def outH (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) (x12 : Vec F S2048x256 .f32) (x13 : Vec F S2048x256 .f32) (x14 : Vec F S256 .f32) : Vec F S64x256 .f32 :=
  View.canon [⟨rC, k0_pay2 (k0_pay4 (View.ld x0 rH)) (k0_pay5 (View.ld x1 rH)) (View.ld x2 rC) (k0_pay6 (View.ld x0 rH) (View.ld x1 rH) (View.ld x3 rW) (View.ld x4 rW) (View.ld x5 rB)) (k0_pay7 (View.ld x0 rH) (View.ld x1 rH) (View.ld x6 rW) (View.ld x7 rW) (View.ld x8 rB)) (k0_pay8 (View.ld x0 rH) (View.ld x9 rW)) (k0_pay9 (View.ld x1 rH) (View.ld x10 rW)) (View.ld x11 rB) (View.ld x12 rW) (View.ld x13 rW) (View.ld x14 rB)⟩]
/-- The new cell state's buffer after the body. -/
def outC (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) : Vec F S64x256 .f32 :=
  View.canon [⟨rC, k0_pay1 (View.ld x2 rC) (k0_pay6 (View.ld x0 rH) (View.ld x1 rH) (View.ld x3 rW) (View.ld x4 rW) (View.ld x5 rB)) (k0_pay7 (View.ld x0 rH) (View.ld x1 rH) (View.ld x6 rW) (View.ld x7 rW) (View.ld x8 rB)) (k0_pay8 (View.ld x0 rH) (View.ld x9 rW)) (k0_pay9 (View.ld x1 rH) (View.ld x10 rW)) (View.ld x11 rB)⟩]

/-- One store of the whole block covers the block. -/
theorem cover_one (p0 : Vec F S64x256 .f32) (y : S64x256.Idx) :
    ∃ pc ∈ ([⟨rC, p0⟩] : List (View.Piece (Elt F) S64x256 .f32)), y ∈ pc.1.set :=
  View.cover_of_tiled [⟨rC, p0⟩] S64x256.size (by rfl) y

/-! ## The body's triple -/

set_option maxHeartbeats 4000000 in
/-- The body on whole buffers, the inputs' at contents `xW` and the outputs' at anything, runs to its end holding the
    inputs' as they were and each output's at its one store's value. -/
theorem sound_kernel (c : Dev nD) (E : Set ℕ) (i : grid0.Coords) (arg1 : Memref sig .tc .vmem S64x2048 .f32) (harg1 : arg1.IsWhole) (arg2 : Memref sig .tc .vmem S64x2048 .f32) (harg2 : arg2.IsWhole) (arg3 : Memref sig .tc .vmem S64x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S256 .f32) (harg12 : arg12.IsWhole) (arg13 : Memref sig .tc .vmem S2048x256 .f32) (harg13 : arg13.IsWhole) (arg14 : Memref sig .tc .vmem S2048x256 .f32) (harg14 : arg14.IsWhole) (arg15 : Memref sig .tc .vmem S256 .f32) (harg15 : arg15.IsWhole) (arg16 : Memref sig .tc .vmem S2048x256 .f32) (harg16 : arg16.IsWhole) (arg17 : Memref sig .tc .vmem S256 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S64x256 .f32) (harg20 : arg20.IsWhole)
    (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) (x12 : Vec F S2048x256 .f32) (x13 : Vec F S2048x256 .f32) (x14 : Vec F S256 .f32) (x15 : Vec F S2048x256 .f32) (x16 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (outY x0 x15 x16) ∗ owns (c : Thread nD τ) arg19 fullShare (outH x0 x1 x2 x3 x4 x5 x6 x7 x8 x9 x10 x11 x12 x13 x14)
            ∗ owns (c : Thread nD τ) arg20 fullShare (outC x0 x1 x2 x3 x4 x5 x6 x7 x8 x9 x10 x11)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover_one _)
  isplitl [H18]
  · iexists _; isplitr
    swap; · iexact H18
    ipureintro
    try dsimp only
    exact View.read_writes_eq_canon _ _ _ (cover_one _)
  iexists _; isplitr
  swap; · iexact H19
  ipureintro
  try dsimp only
  exact View.read_writes_eq_canon _ _ _ (cover_one _)

/-! ## The pipeline's proof data -/

/-- On core `c`: the arrays as the region finds them; after the body at point `t` each input's buffer at its block and
    each output's at its store's value of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outY (iblk m c 0 t) (iblk m c 15 t) (iblk m c 16 t)
    | ⟨18, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outY (iblk m c 0 t) (iblk m c 15 t) (iblk m c 16 t) := by dsimp only [dats]
theorem after_18 (c : Dev nD) (t : Fin cfg0.N) : (dats m 0 c).after 18 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after_19 (c : Dev nD) (t : Fin cfg0.N) : (dats m 0 c).after 19 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    write-backs assemble from the proof data and the joined buffer as the host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to its end and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Frm

end
-- ==== Proof.FrameIdeal.lean ====
/-
  The frame of the program: its one region on a grid of eight column blocks, followed by the one host line that joins
  the three results side by side.

  The body at a grid point reads the seventeen input blocks, stores three 64×256 blocks (the projection, the new hidden
  state, the new cell state), and names nothing else; its loads of the output buffers before each store are never used.
  So after the body each output buffer holds the one store's value as a function of the input blocks alone
  (`outY`, `outH`, `outC`), each input buffer still its block, and the run of the whole program leaves every
  argument array as launched, each result array at what the write-backs assemble, and the joined buffer at the host
  line's value of the three result arrays.
-/
import proofs.«162687_j11879879542513_2_alg».proof.Proof.Gen.KernelIdeal.Launch
import proofs.«162687_j11879879542513_2_alg».proof.Proof.Gen.KernelIdeal.Skeleton
import proofs.«162687_j11879879542513_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- A core's buffer contents when the region is entered: no host line comes before it, so the launch contents. -/
abbrev V0 (c : Dev nD) : Valuation τ sig (Elt F) :=
  StableHlo.after (List.flatten ([] : List (List (HloOp τ sig (Elt F))))) (fun b => m (c, b))
/-- The same read at a reference. -/
abbrev V (c : Dev nD) (b : Ref sig .tc) : Buf (Elt F) ((c : Thread nD τ).loc b) := V0 m c (Proc.devRef .tc b)

/-- Every buffer is found as launched. -/
theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor

/-- The program is its region continued by the joining line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The joining line touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes the joined buffer only, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block at every point, fetched there or not. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current buffer holds its block at every point, fetched there or not. -/
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current buffer holds its block at every point, fetched there or not. -/
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current buffer holds its block at every point, fetched there or not. -/
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every window's array at what the write-backs assemble: each argument array is an input
    window's, which no write-back touches, so it ends as the region found it, as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 1).trans (((dats 0 c).arrAt_in 1 rfl _).trans (hA c 1)),
      ((h c).1 0).trans (((dats 0 c).arrAt_in 0 rfl _).trans (hA c 0)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6)),
      ((h c).1 7).trans (((dats 0 c).arrAt_in 7 rfl _).trans (hA c 7)),
      ((h c).1 8).trans (((dats 0 c).arrAt_in 8 rfl _).trans (hA c 8)),
      ((h c).1 12).trans (((dats 0 c).arrAt_in 12 rfl _).trans (hA c 12)),
      ((h c).1 13).trans (((dats 0 c).arrAt_in 13 rfl _).trans (hA c 13)),
      ((h c).1 14).trans (((dats 0 c).arrAt_in 14 rfl _).trans (hA c 14)),
      ((h c).1 9).trans (((dats 0 c).arrAt_in 9 rfl _).trans (hA c 9)),
      ((h c).1 10).trans (((dats 0 c).arrAt_in 10 rfl _).trans (hA c 10)),
      ((h c).1 11).trans (((dats 0 c).arrAt_in 11 rfl _).trans (hA c 11)),
      ((h c).1 15).trans (((dats 0 c).arrAt_in 15 rfl _).trans (hA c 15)),
      ((h c).1 16).trans (((dats 0 c).arrAt_in 16 rfl _).trans (hA c 16))⟩) h

/-! ## The body's accesses -/

abbrev rH : Rect S64x2048 := Rect.unit (s := S64x2048) ![0, 0] S64x2048.size inb_S64x2048_S64x2048_0_0
abbrev rC : Rect S64x256 := Rect.unit (s := S64x256) ![0, 0] S64x256.size inb_S64x256_S64x256_0_0
abbrev rW : Rect S2048x256 := Rect.unit (s := S2048x256) ![0, 0] S2048x256.size inb_S2048x256_S2048x256_0_0
abbrev rB : Rect S256 := Rect.unit (s := S256) ![0] S256.size inb_S256_S256_0

/-! ## What the body leaves in each output buffer -/

/-- The projection's buffer after the body: its one store, of the previous hidden state's block, the projection
    weights' block and the projection bias's block. -/
def outY (x0 : Vec F S64x2048 .f32) (x15 : Vec F S2048x256 .f32) (x16 : Vec F S256 .f32) : Vec F S64x256 .f32 :=
  View.canon [⟨rC, k0_pay3 (k0_pay4 (View.ld x0 rH)) (View.ld x15 rW) (View.ld x16 rB)⟩]
/-- The new hidden state's buffer after the body. -/
def outH (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) (x12 : Vec F S2048x256 .f32) (x13 : Vec F S2048x256 .f32) (x14 : Vec F S256 .f32) : Vec F S64x256 .f32 :=
  View.canon [⟨rC, k0_pay2 (k0_pay4 (View.ld x0 rH)) (k0_pay5 (View.ld x1 rH)) (View.ld x2 rC) (k0_pay6 (View.ld x0 rH) (View.ld x1 rH) (View.ld x3 rW) (View.ld x4 rW) (View.ld x5 rB)) (k0_pay7 (View.ld x0 rH) (View.ld x1 rH) (View.ld x6 rW) (View.ld x7 rW) (View.ld x8 rB)) (k0_pay8 (View.ld x0 rH) (View.ld x9 rW)) (k0_pay9 (View.ld x1 rH) (View.ld x10 rW)) (View.ld x11 rB) (View.ld x12 rW) (View.ld x13 rW) (View.ld x14 rB)⟩]
/-- The new cell state's buffer after the body. -/
def outC (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) : Vec F S64x256 .f32 :=
  View.canon [⟨rC, k0_pay1 (View.ld x2 rC) (k0_pay6 (View.ld x0 rH) (View.ld x1 rH) (View.ld x3 rW) (View.ld x4 rW) (View.ld x5 rB)) (k0_pay7 (View.ld x0 rH) (View.ld x1 rH) (View.ld x6 rW) (View.ld x7 rW) (View.ld x8 rB)) (k0_pay8 (View.ld x0 rH) (View.ld x9 rW)) (k0_pay9 (View.ld x1 rH) (View.ld x10 rW)) (View.ld x11 rB)⟩]

/-- One store of the whole block covers the block. -/
theorem cover_one (p0 : Vec F S64x256 .f32) (y : S64x256.Idx) :
    ∃ pc ∈ ([⟨rC, p0⟩] : List (View.Piece (Elt F) S64x256 .f32)), y ∈ pc.1.set :=
  View.cover_of_tiled [⟨rC, p0⟩] S64x256.size (by rfl) y

/-! ## The body's triple -/

set_option maxHeartbeats 4000000 in
/-- The body on whole buffers, the inputs' at contents `xW` and the outputs' at anything, runs to its end holding the
    inputs' as they were and each output's at its one store's value. -/
theorem sound_kernel (c : Dev nD) (E : Set ℕ) (i : grid0.Coords) (arg1 : Memref sig .tc .vmem S64x2048 .f32) (harg1 : arg1.IsWhole) (arg2 : Memref sig .tc .vmem S64x2048 .f32) (harg2 : arg2.IsWhole) (arg3 : Memref sig .tc .vmem S64x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S256 .f32) (harg9 : arg9.IsWhole) (arg10 : Memref sig .tc .vmem S2048x256 .f32) (harg10 : arg10.IsWhole) (arg11 : Memref sig .tc .vmem S2048x256 .f32) (harg11 : arg11.IsWhole) (arg12 : Memref sig .tc .vmem S256 .f32) (harg12 : arg12.IsWhole) (arg13 : Memref sig .tc .vmem S2048x256 .f32) (harg13 : arg13.IsWhole) (arg14 : Memref sig .tc .vmem S2048x256 .f32) (harg14 : arg14.IsWhole) (arg15 : Memref sig .tc .vmem S256 .f32) (harg15 : arg15.IsWhole) (arg16 : Memref sig .tc .vmem S2048x256 .f32) (harg16 : arg16.IsWhole) (arg17 : Memref sig .tc .vmem S256 .f32) (harg17 : arg17.IsWhole) (arg18 : Memref sig .tc .vmem S64x256 .f32) (harg18 : arg18.IsWhole) (arg19 : Memref sig .tc .vmem S64x256 .f32) (harg19 : arg19.IsWhole) (arg20 : Memref sig .tc .vmem S64x256 .f32) (harg20 : arg20.IsWhole)
    (x0 : Vec F S64x2048 .f32) (x1 : Vec F S64x2048 .f32) (x2 : Vec F S64x256 .f32) (x3 : Vec F S2048x256 .f32) (x4 : Vec F S2048x256 .f32) (x5 : Vec F S256 .f32) (x6 : Vec F S2048x256 .f32) (x7 : Vec F S2048x256 .f32) (x8 : Vec F S256 .f32) (x9 : Vec F S2048x256 .f32) (x10 : Vec F S2048x256 .f32) (x11 : Vec F S256 .f32) (x12 : Vec F S2048x256 .f32) (x13 : Vec F S2048x256 .f32) (x14 : Vec F S256 .f32) (x15 : Vec F S2048x256 .f32) (x16 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (outY x0 x15 x16) ∗ owns (c : Thread nD τ) arg19 fullShare (outH x0 x1 x2 x3 x4 x5 x6 x7 x8 x9 x10 x11 x12 x13 x14)
            ∗ owns (c : Thread nD τ) arg20 fullShare (outC x0 x1 x2 x3 x4 x5 x6 x7 x8 x9 x10 x11)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover_one _)
  isplitl [H18]
  · iexists _; isplitr
    swap; · iexact H18
    ipureintro
    try dsimp only
    exact View.read_writes_eq_canon _ _ _ (cover_one _)
  iexists _; isplitr
  swap; · iexact H19
  ipureintro
  try dsimp only
  exact View.read_writes_eq_canon _ _ _ (cover_one _)

/-! ## The pipeline's proof data -/

/-- On core `c`: the arrays as the region finds them; after the body at point `t` each input's buffer at its block and
    each output's at its store's value of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outY (iblk m c 0 t) (iblk m c 15 t) (iblk m c 16 t)
    | ⟨18, _⟩ => outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outY (iblk m c 0 t) (iblk m c 15 t) (iblk m c 16 t) := by dsimp only [dats]
theorem after_18 (c : Dev nD) (t : Fin cfg0.N) : (dats m 0 c).after 18 t = outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after_19 (c : Dev nD) (t : Fin cfg0.N) : (dats m 0 c).after 19 t = outC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each window's array at what the
    write-backs assemble from the proof data and the joined buffer as the host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the program runs to its end and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Frm

end
-- ==== Proof.KernelBlocks.lean ====
/-
  Where the region's blocks sit in their arrays, and what the joining line makes of the three result arrays.

  The grid has eight points; at point t every weight window's block is columns 256·t … 256·t+255 of its 2048×2048
  array (all 2048 rows), every bias window's block the same range of its vector, the previous cell state's block and
  each result's block the same columns of a 64×2048 array, and the two resident windows (previous hidden state, input)
  are their whole arrays at every point. The eight result blocks tile each result array.
-/
import proofs.«162687_j11879879542513_2_alg».proof.Proof.FrameIdeal
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ)

theorem hz2 : (![0, 0] : Fin 2 → Nat) = fun _ => 0 := funext fun a => by fin_cases a <;> rfl
theorem hz1 : (![0] : Fin 1 → Nat) = fun _ => 0 := funext fun a => by fin_cases a <;> rfl

/-! ## The printed index maps over the grid -/

/-- The resident windows stay at block (0,0). -/
theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
/-- The column-blocked windows are at block (0,t). -/
theorem idx_2 : ∀ t : Fin cfg0.N, win0_2.index t (0 : Fin 2) = 0 ∧ win0_2.index t (1 : Fin 2) = t.val :=
  (by decide +kernel : ∀ t : Fin grid0.N, _)
theorem idx_3 : ∀ t : Fin cfg0.N, win0_3.index t (0 : Fin 2) = 0 ∧ win0_3.index t (1 : Fin 2) = t.val :=
  (by decide +kernel : ∀ t : Fin grid0.N, _)
theorem idx_4 : ∀ t : Fin cfg0.N, win0_4.index t (0 : Fin 2) = 0 ∧ win0_4.index t (1 : Fin 2) = t.val :=
  (by decide +kernel : ∀ t : Fin grid0.N, _)
theorem idx_6 : ∀ t : Fin cfg0.N, win0_6.index t (0 : Fin 2) = 0 ∧ win0_6.index t (1 : Fin 2) = t.val :=
  (by decide +kernel : ∀ t : Fin grid0.N, _)
theorem idx_7 : ∀ t : Fin cfg0.N, win0_7.index t (0 : Fin 2) = 0 ∧ win0_7.index t (1 : Fin 2) = t.val :=
  (by decide +kernel : ∀ t : Fin grid0.N, _)
theorem idx_9 : ∀ t : Fin cfg0.N, win0_9.index t (0 : Fin 2) = 0 ∧ win0_9.index t (1 : Fin 2) = t.val :=
  (by decide +kernel : ∀ t : Fin grid0.N, _)
theorem idx_10 : ∀ t : Fin cfg0.N, win0_10.index t (0 : Fin 2) = 0 ∧ win0_10.index t (1 : Fin 2) = t.val :=
  (by decide +kernel : ∀ t : Fin grid0.N, _)
theorem idx_12 : ∀ t : Fin cfg0.N, win0_12.index t (0 : Fin 2) = 0 ∧ win0_12.index t (1 : Fin 2) = t.val :=
  (by decide +kernel : ∀ t : Fin grid0.N, _)
theorem idx_13 : ∀ t : Fin cfg0.N, win0_13.index t (0 : Fin 2) = 0 ∧ win0_13.index t (1 : Fin 2) = t.val :=
  (by decide +kernel : ∀ t : Fin grid0.N, _)
theorem idx_15 : ∀ t : Fin cfg0.N, win0_15.index t (0 : Fin 2) = 0 ∧ win0_15.index t (1 : Fin 2) = t.val :=
  (by decide +kernel : ∀ t : Fin grid0.N, _)
theorem idx_17 : ∀ t : Fin cfg0.N, win0_17.index t (0 : Fin 2) = 0 ∧ win0_17.index t (1 : Fin 2) = t.val :=
  (by decide +kernel : ∀ t : Fin grid0.N, _)
theorem idx_18 : ∀ t : Fin cfg0.N, win0_18.index t (0 : Fin 2) = 0 ∧ win0_18.index t (1 : Fin 2) = t.val :=
  (by decide +kernel : ∀ t : Fin grid0.N, _)
theorem idx_19 : ∀ t : Fin cfg0.N, win0_19.index t (0 : Fin 2) = 0 ∧ win0_19.index t (1 : Fin 2) = t.val :=
  (by decide +kernel : ∀ t : Fin grid0.N, _)
/-- The bias windows are at block t. -/
theorem idx_5 : ∀ t : Fin cfg0.N, win0_5.index t (0 : Fin 1) = t.val :=
  (by decide +kernel : ∀ t : Fin grid0.N, _)
theorem idx_8 : ∀ t : Fin cfg0.N, win0_8.index t (0 : Fin 1) = t.val :=
  (by decide +kernel : ∀ t : Fin grid0.N, _)
theorem idx_11 : ∀ t : Fin cfg0.N, win0_11.index t (0 : Fin 1) = t.val :=
  (by decide +kernel : ∀ t : Fin grid0.N, _)
theorem idx_14 : ∀ t : Fin cfg0.N, win0_14.index t (0 : Fin 1) = t.val :=
  (by decide +kernel : ∀ t : Fin grid0.N, _)
theorem idx_16 : ∀ t : Fin cfg0.N, win0_16.index t (0 : Fin 1) = t.val :=
  (by decide +kernel : ∀ t : Fin grid0.N, _)

theorem t_lt (t : Fin cfg0.N) : t.val < 8 := by have := t.isLt; have h : cfg0.N = 8 := N_0; omega

/-- Column q of block t is column 256·t + q of the array. -/
def col (t : Fin cfg0.N) (q : Fin 256) : Fin 2048 := ⟨256 * t.val + q.val, by have := t_lt t; have := q.isLt; omega⟩

theorem col_val (t : Fin cfg0.N) (q : Fin 256) : (col t q).val = 256 * t.val + q.val := rfl

/-! ## The input blocks read off their arrays -/

/-- A resident window's block is its whole array. -/
theorem blk_0 (c : Dev nD) (t : Fin cfg0.N) (r : Fin 64) (k : Fin 2048) :
    iblk m c 0 t (ix2 r k) = V m c main_arg1 (ix2 r k) := by
  obtain ⟨e0, e1⟩ := idx_0 t
  show V m c main_arg1 (((cfg0.win 0).blk t).view.emb (ix2 r k)) = V m c main_arg1 (ix2 r k)
  refine congrArg _ (funext fun a => Fin.ext ?_)
  match a with
  | ⟨0, _⟩ => show win0_0.index t (0 : Fin 2) * 64 + 1 * r.val = r.val; omega
  | ⟨1, _⟩ => show win0_0.index t (1 : Fin 2) * 2048 + 1 * k.val = k.val; omega
theorem blk_1 (c : Dev nD) (t : Fin cfg0.N) (r : Fin 64) (k : Fin 2048) :
    iblk m c 1 t (ix2 r k) = V m c main_arg0 (ix2 r k) := by
  obtain ⟨e0, e1⟩ := idx_1 t
  show V m c main_arg0 (((cfg0.win 1).blk t).view.emb (ix2 r k)) = V m c main_arg0 (ix2 r k)
  refine congrArg _ (funext fun a => Fin.ext ?_)
  match a with
  | ⟨0, _⟩ => show win0_1.index t (0 : Fin 2) * 64 + 1 * r.val = r.val; omega
  | ⟨1, _⟩ => show win0_1.index t (1 : Fin 2) * 2048 + 1 * k.val = k.val; omega
/-- The previous cell state's block is a block of columns. -/
theorem blk_2 (c : Dev nD) (t : Fin cfg0.N) (r : Fin 64) (q : Fin 256) :
    iblk m c 2 t (ix2 r q) = V m c main_arg2 (ix2 r (col t q)) := by
  obtain ⟨e0, e1⟩ := idx_2 t
  show V m c main_arg2 (((cfg0.win 2).blk t).view.emb (ix2 r q)) = V m c main_arg2 (ix2 r (col t q))
  refine congrArg _ (funext fun a => Fin.ext ?_)
  match a with
  | ⟨0, _⟩ => show win0_2.index t (0 : Fin 2) * 64 + 1 * r.val = r.val; omega
  | ⟨1, _⟩ => show win0_2.index t (1 : Fin 2) * 256 + 1 * q.val = 256 * t.val + q.val; omega
/-- A weight window's block is a block of columns, all rows. -/
theorem blk_3 (c : Dev nD) (t : Fin cfg0.N) (k : Fin 2048) (q : Fin 256) :
    iblk m c 3 t (ix2 k q) = V m c main_arg3 (ix2 k (col t q)) := by
  obtain ⟨e0, e1⟩ := idx_3 t
  show V m c main_arg3 (((cfg0.win 3).blk t).view.emb (ix2 k q)) = V m c main_arg3 (ix2 k (col t q))
  refine congrArg _ (funext fun a => Fin.ext ?_)
  match a with
  | ⟨0, _⟩ => show win0_3.index t (0 : Fin 2) * 2048 + 1 * k.val = k.val; omega
  | ⟨1, _⟩ => show win0_3.index t (1 : Fin 2) * 256 + 1 * q.val = 256 * t.val + q.val; omega
theorem blk_4 (c : Dev nD) (t : Fin cfg0.N) (k : Fin 2048) (q : Fin 256) :
    iblk m c 4 t (ix2 k q) = V m c main_arg4 (ix2 k (col t q)) := by
  obtain ⟨e0, e1⟩ := idx_4 t
  show V m c main_arg4 (((cfg0.win 4).blk t).view.emb (ix2 k q)) = V m c main_arg4 (ix2 k (col t q))
  refine congrArg _ (funext fun a => Fin.ext ?_)
  match a with
  | ⟨0, _⟩ => show win0_4.index t (0 : Fin 2) * 2048 + 1 * k.val = k.val; omega
  | ⟨1, _⟩ => show win0_4.index t (1 : Fin 2) * 256 + 1 * q.val = 256 * t.val + q.val; omega
theorem blk_6 (c : Dev nD) (t : Fin cfg0.N) (k : Fin 2048) (q : Fin 256) :
    iblk m c 6 t (ix2 k q) = V m c main_arg6 (ix2 k (col t q)) := by
  obtain ⟨e0, e1⟩ := idx_6 t
  show V m c main_arg6 (((cfg0.win 6).blk t).view.emb (ix2 k q)) = V m c main_arg6 (ix2 k (col t q))
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = 256 * t.val + q.val; omega
theorem blk_7 (c : Dev nD) (t : Fin cfg0.N) (k : Fin 2048) (q : Fin 256) :
    iblk m c 7 t (ix2 k q) = V m c main_arg7 (ix2 k (col t q)) := by
  obtain ⟨e0, e1⟩ := idx_7 t
  show V m c main_arg7 (((cfg0.win 7).blk t).view.emb (ix2 k q)) = V m c main_arg7 (ix2 k (col t q))
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = 256 * t.val + q.val; omega
theorem blk_9 (c : Dev nD) (t : Fin cfg0.N) (k : Fin 2048) (q : Fin 256) :
    iblk m c 9 t (ix2 k q) = V m c main_arg12 (ix2 k (col t q)) := by
  obtain ⟨e0, e1⟩ := idx_9 t
  show V m c main_arg12 (((cfg0.win 9).blk t).view.emb (ix2 k q)) = V m c main_arg12 (ix2 k (col t q))
  refine congrArg _ (funext fun a => Fin.ext ?_)
  match a with
  | ⟨0, _⟩ => show win0_9.index t (0 : Fin 2) * 2048 + 1 * k.val = k.val; omega
  | ⟨1, _⟩ => show win0_9.index t (1 : Fin 2) * 256 + 1 * q.val = 256 * t.val + q.val; omega
theorem blk_10 (c : Dev nD) (t : Fin cfg0.N) (k : Fin 2048) (q : Fin 256) :
    iblk m c 10 t (ix2 k q) = V m c main_arg13 (ix2 k (col t q)) := by
  obtain ⟨e0, e1⟩ := idx_10 t
  show V m c main_arg13 (((cfg0.win 10).blk t).view.emb (ix2 k q)) = V m c main_arg13 (ix2 k (col t q))
  refine congrArg _ (funext fun a => Fin.ext ?_)
  match a with
  | ⟨0, _⟩ => show win0_10.index t (0 : Fin 2) * 2048 + 1 * k.val = k.val; omega
  | ⟨1, _⟩ => show win0_10.index t (1 : Fin 2) * 256 + 1 * q.val = 256 * t.val + q.val; omega
theorem blk_12 (c : Dev nD) (t : Fin cfg0.N) (k : Fin 2048) (q : Fin 256) :
    iblk m c 12 t (ix2 k q) = V m c main_arg9 (ix2 k (col t q)) := by
  obtain ⟨e0, e1⟩ := idx_12 t
  show V m c main_arg9 (((cfg0.win 12).blk t).view.emb (ix2 k q)) = V m c main_arg9 (ix2 k (col t q))
  refine congrArg _ (funext fun a => Fin.ext ?_)
  match a with
  | ⟨0, _⟩ => show win0_12.index t (0 : Fin 2) * 2048 + 1 * k.val = k.val; omega
  | ⟨1, _⟩ => show win0_12.index t (1 : Fin 2) * 256 + 1 * q.val = 256 * t.val + q.val; omega
theorem blk_13 (c : Dev nD) (t : Fin cfg0.N) (k : Fin 2048) (q : Fin 256) :
    iblk m c 13 t (ix2 k q) = V m c main_arg10 (ix2 k (col t q)) := by
  obtain ⟨e0, e1⟩ := idx_13 t
  show V m c main_arg10 (((cfg0.win 13).blk t).view.emb (ix2 k q)) = V m c main_arg10 (ix2 k (col t q))
  refine congrArg _ (funext fun a => Fin.ext ?_)
  match a with
  | ⟨0, _⟩ => show win0_13.index t (0 : Fin 2) * 2048 + 1 * k.val = k.val; omega
  | ⟨1, _⟩ => show win0_13.index t (1 : Fin 2) * 256 + 1 * q.val = 256 * t.val + q.val; omega
theorem blk_15 (c : Dev nD) (t : Fin cfg0.N) (k : Fin 2048) (q : Fin 256) :
    iblk m c 15 t (ix2 k q) = V m c main_arg15 (ix2 k (col t q)) := by
  obtain ⟨e0, e1⟩ := idx_15 t
  show V m c main_arg15 (((cfg0.win 15).blk t).view.emb (ix2 k q)) = V m c main_arg15 (ix2 k (col t q))
  refine congrArg _ (funext fun a => Fin.ext ?_)
  match a with
  | ⟨0, _⟩ => show win0_15.index t (0 : Fin 2) * 2048 + 1 * k.val = k.val; omega
  | ⟨1, _⟩ => show win0_15.index t (1 : Fin 2) * 256 + 1 * q.val = 256 * t.val + q.val; omega
/-- A bias window's block is the same range of its vector. -/
theorem blk_5 (c : Dev nD) (t : Fin cfg0.N) (q : Fin 256) :
    iblk m c 5 t (ix1 q) = V m c main_arg5 (ix1 (col t q)) := by
  have e0 := idx_5 t
  show V m c main_arg5 (((cfg0.win 5).blk t).view.emb (ix1 q)) = V m c main_arg5 (ix1 (col t q))
  refine congrArg _ (funext fun a => Fin.ext ?_)
  match a with
  | ⟨0, _⟩ => show win0_5.index t (0 : Fin 1) * 256 + 1 * q.val = 256 * t.val + q.val; omega
theorem blk_8 (c : Dev nD) (t : Fin cfg0.N) (q : Fin 256) :
    iblk m c 8 t (ix1 q) = V m c main_arg8 (ix1 (col t q)) := by
  have e0 := idx_8 t
  show V m c main_arg8 (((cfg0.win 8).blk t).view.emb (ix1 q)) = V m c main_arg8 (ix1 (col t q))
  refine congrArg _ (funext fun a => Fin.ext ?_)
  match a with
  | ⟨0, _⟩ => show win0_8.index t (0 : Fin 1) * 256 + 1 * q.val = 256 * t.val + q.val; omega
theorem blk_11 (c : Dev nD) (t : Fin cfg0.N) (q : Fin 256) :
    iblk m c 11 t (ix1 q) = V m c main_arg14 (ix1 (col t q)) := by
  have e0 := idx_11 t
  show V m c main_arg14 (((cfg0.win 11).blk t).view.emb (ix1 q)) = V m c main_arg14 (ix1 (col t q))
  refine congrArg _ (funext fun a => Fin.ext ?_)
  match a with
  | ⟨0, _⟩ => show win0_11.index t (0 : Fin 1) * 256 + 1 * q.val = 256 * t.val + q.val; omega
theorem blk_14 (c : Dev nD) (t : Fin cfg0.N) (q : Fin 256) :
    iblk m c 14 t (ix1 q) = V m c main_arg11 (ix1 (col t q)) := by
  have e0 := idx_14 t
  show V m c main_arg11 (((cfg0.win 14).blk t).view.emb (ix1 q)) = V m c main_arg11 (ix1 (col t q))
  refine congrArg _ (funext fun a => Fin.ext ?_)
  match a with
  | ⟨0, _⟩ => show win0_14.index t (0 : Fin 1) * 256 + 1 * q.val = 256 * t.val + q.val; omega
theorem blk_16 (c : Dev nD) (t : Fin cfg0.N) (q : Fin 256) :
    iblk m c 16 t (ix1 q) = V m c main_arg16 (ix1 (col t q)) := by
  have e0 := idx_16 t
  show V m c main_arg16 (((cfg0.win 16).blk t).view.emb (ix1 q)) = V m c main_arg16 (ix1 (col t q))
  refine congrArg _ (funext fun a => Fin.ext ?_)
  match a with
  | ⟨0, _⟩ => show win0_16.index t (0 : Fin 1) * 256 + 1 * q.val = 256 * t.val + q.val; omega

/-! ## The result blocks in their arrays -/

/-- Element (r,q) of result window 17's block at point t is element (r, 256·t+q) of its array. -/
theorem emb_17 (t : Fin cfg0.N) (r : Fin 64) (q : Fin 256) :
    ((cfg0.win 17).blk t).view.emb (ix2 r q) = ix2 r (col t q) := by
  obtain ⟨e0, e1⟩ := idx_17 t
  refine funext fun a => Fin.ext ?_
  match a with
  | ⟨0, _⟩ => show win0_17.index t (0 : Fin 2) * 64 + 1 * r.val = r.val; omega
  | ⟨1, _⟩ => show win0_17.index t (1 : Fin 2) * 256 + 1 * q.val = 256 * t.val + q.val; omega
theorem mem_blk_17 (t : Fin cfg0.N) (i : S64x2048.Idx) :
    i ∈ ((cfg0.win 17).blk t).view.set ↔ ∀ a : Fin 2, win0_17.index t a * S64x256.size a ≤ (i a).val ∧ (i a).val < win0_17.index t a * S64x256.size a + S64x256.size a := by
  show i ∈ ((View.whole main_v0_0).slice (win0_17.rect t)).set ↔ _
  rw [View.set_slice_whole, Rect.mem_set_unit]
  exact Iff.rfl
/-- Every element of the array is in the block of the point its column names. -/
theorem cover_17 (i : S64x2048.Idx) : ∃ t : Fin cfg0.N, (cfg0.win 17).flush t = true ∧ i ∈ ((cfg0.win 17).blk t).view.set := by
  have hi0 : (i 0).val < 64 := (i 0).isLt
  have hi1 : (i 1).val < 2048 := (i 1).isLt
  have hN : cfg0.N = 8 := N_0
  let t : Fin cfg0.N := ⟨(i 1).val / 256, by omega⟩
  have ht : t.val = (i 1).val / 256 := rfl
  obtain ⟨e0, e1⟩ := idx_17 t
  refine ⟨t, flush0_17 t, ?_⟩
  rw [mem_blk_17]
  intro a
  match a with
  | ⟨0, _⟩ => show win0_17.index t (0 : Fin 2) * 64 ≤ (i 0).val ∧ (i 0).val < win0_17.index t (0 : Fin 2) * 64 + 64; omega
  | ⟨1, _⟩ => show win0_17.index t (1 : Fin 2) * 256 ≤ (i 1).val ∧ (i 1).val < win0_17.index t (1 : Fin 2) * 256 + 256; omega
/-- Element (r,q) of result window 18's block at point t is element (r, 256·t+q) of its array. -/
theorem emb_18 (t : Fin cfg0.N) (r : Fin 64) (q : Fin 256) :
    ((cfg0.win 18).blk t).view.emb (ix2 r q) = ix2 r (col t q) := by
  obtain ⟨e0, e1⟩ := idx_18 t
  refine funext fun a => Fin.ext ?_
  match a with
  | ⟨0, _⟩ => show win0_18.index t (0 : Fin 2) * 64 + 1 * r.val = r.val; omega
  | ⟨1, _⟩ => show win0_18.index t (1 : Fin 2) * 256 + 1 * q.val = 256 * t.val + q.val; omega
theorem mem_blk_18 (t : Fin cfg0.N) (i : S64x2048.Idx) :
    i ∈ ((cfg0.win 18).blk t).view.set ↔ ∀ a : Fin 2, win0_18.index t a * S64x256.size a ≤ (i a).val ∧ (i a).val < win0_18.index t a * S64x256.size a + S64x256.size a := by
  show i ∈ ((View.whole main_v0_1).slice (win0_18.rect t)).set ↔ _
  rw [View.set_slice_whole, Rect.mem_set_unit]
  exact Iff.rfl
/-- Every element of the array is in the block of the point its column names. -/
theorem cover_18 (i : S64x2048.Idx) : ∃ t : Fin cfg0.N, (cfg0.win 18).flush t = true ∧ i ∈ ((cfg0.win 18).blk t).view.set := by
  have hi0 : (i 0).val < 64 := (i 0).isLt
  have hi1 : (i 1).val < 2048 := (i 1).isLt
  have hN : cfg0.N = 8 := N_0
  let t : Fin cfg0.N := ⟨(i 1).val / 256, by omega⟩
  have ht : t.val = (i 1).val / 256 := rfl
  obtain ⟨e0, e1⟩ := idx_18 t
  refine ⟨t, flush0_18 t, ?_⟩
  rw [mem_blk_18]
  intro a
  match a with
  | ⟨0, _⟩ => show win0_18.index t (0 : Fin 2) * 64 ≤ (i 0).val ∧ (i 0).val < win0_18.index t (0 : Fin 2) * 64 + 64; omega
  | ⟨1, _⟩ => show win0_18.index t (1 : Fin 2) * 256 ≤ (i 1).val ∧ (i 1).val < win0_18.index t (1 : Fin 2) * 256 + 256; omega
/-- Element (r,q) of result window 19's block at point t is element (r, 256·t+q) of its array. -/
theorem emb_19 (t : Fin cfg0.N) (r : Fin 64) (q : Fin 256) :
    ((cfg0.win 19).blk t).view.emb (ix2 r q) = ix2 r (col t q) := by
  obtain ⟨e0, e1⟩ := idx_19 t
  refine funext fun a => Fin.ext ?_
  match a with
  | ⟨0, _⟩ => show win0_19.index t (0 : Fin 2) * 64 + 1 * r.val = r.val; omega
  | ⟨1, _⟩ => show win0_19.index t (1 : Fin 2) * 256 + 1 * q.val = 256 * t.val + q.val; omega
theorem mem_blk_19 (t : Fin cfg0.N) (i : S64x2048.Idx) :
    i ∈ ((cfg0.win 19).blk t).view.set ↔ ∀ a : Fin 2, win0_19.index t a * S64x256.size a ≤ (i a).val ∧ (i a).val < win0_19.index t a * S64x256.size a + S64x256.size a := by
  show i ∈ ((View.whole main_v0_2).slice (win0_19.rect t)).set ↔ _
  rw [View.set_slice_whole, Rect.mem_set_unit]
  exact Iff.rfl
/-- Every element of the array is in the block of the point its column names. -/
theorem cover_19 (i : S64x2048.Idx) : ∃ t : Fin cfg0.N, (cfg0.win 19).flush t = true ∧ i ∈ ((cfg0.win 19).blk t).view.set := by
  have hi0 : (i 0).val < 64 := (i 0).isLt
  have hi1 : (i 1).val < 2048 := (i 1).isLt
  have hN : cfg0.N = 8 := N_0
  let t : Fin cfg0.N := ⟨(i 1).val / 256, by omega⟩
  have ht : t.val = (i 1).val / 256 := rfl
  obtain ⟨e0, e1⟩ := idx_19 t
  refine ⟨t, flush0_19 t, ?_⟩
  rw [mem_blk_19]
  intro a
  match a with
  | ⟨0, _⟩ => show win0_19.index t (0 : Fin 2) * 64 ≤ (i 0).val ∧ (i 0).val < win0_19.index t (0 : Fin 2) * 64 + 64; omega
  | ⟨1, _⟩ => show win0_19.index t (1 : Fin 2) * 256 ≤ (i 1).val ∧ (i 1).val < win0_19.index t (1 : Fin 2) * 256 + 256; omega

/-! ## The joining line -/

/-- After the region the joined buffer holds the three result arrays side by side. -/
theorem tail_eq (c : Dev nD) :
    Pipeline.afterTail₀ cfgs (dats m) 0 (V0 m) [hostOps1] c main_v1
      = concatenate S64x6144 1 [⟨S64x2048, (dats m 0 c).arrAt 17 cfg0.N⟩, ⟨S64x2048, (dats m 0 c).arrAt 18 cfg0.N⟩,
          ⟨S64x2048, (dats m 0 c).arrAt 19 cfg0.N⟩] concatenates_S64x2048_S64x2048_S64x2048_S64x6144_d1 := by
  unfold Pipeline.afterTail₀
  show StableHlo.after hostOps1 _ (Proc.devRef .tc main_v1) = _
  simp only [hostOps1, StableHlo.after_cons, StableHlo.after_nil]
  rw [StableHlo.nary_result]
  have a17 := Pipeline.withArrays_arr spec0 launch0.win.arr_inj c (V0 m c) (fun w => (dats m 0 c).arrAt w cfg0.N) 17
  have a18 := Pipeline.withArrays_arr spec0 launch0.win.arr_inj c (V0 m c) (fun w => (dats m 0 c).arrAt w cfg0.N) 18
  have a19 := Pipeline.withArrays_arr spec0 launch0.win.arr_inj c (V0 m c) (fun w => (dats m 0 c).arrAt w cfg0.N) 19
  show concatenate S64x6144 1
      [⟨S64x2048, Pipeline.withArrays spec0 c (V0 m c) (fun w => (dats m 0 c).arrAt w cfg0.N) (Proc.devRef .tc (Pipeline.arrRef spec0 17))⟩,
        ⟨S64x2048, Pipeline.withArrays spec0 c (V0 m c) (fun w => (dats m 0 c).arrAt w cfg0.N) (Proc.devRef .tc (Pipeline.arrRef spec0 18))⟩,
        ⟨S64x2048, Pipeline.withArrays spec0 c (V0 m c) (fun w => (dats m 0 c).arrAt w cfg0.N) (Proc.devRef .tc (Pipeline.arrRef spec0 19))⟩]
      concatenates_S64x2048_S64x2048_S64x2048_S64x6144_d1 = _
  rw [a17, a18, a19]

end Cert.KernelIdeal.Blk

end
-- ==== Proof.Spec.lean ====
/-
  The single-step LSTM cell as one function of its argument arrays, index by index, on the extended reals.

  With h the previous hidden state, x the input and c the previous cell state (each 64 rows of 2048 entries), a gate's
  pre-activation at row r and column j is
      (Σ_k h[r,k]·Wh[k,j]) + (Σ_k x[r,k]·Wx[k,j]) + b[j],
  the new cell state is  σ(f)·c + σ(i)·tanh(g),  the new hidden state  σ(o)·tanh(new cell),  and the projection
  (Σ_k h[r,k]·Wy[k,j]) + by[j],  where σ is the logistic function 1/(1+e^(-z)) and f, i, g, o are the four gates'
  pre-activations. The number of columns n is a parameter: the same formulas describe a block of columns and the
  whole array, and a block of the result depends only on the matching block of columns of the weights, of the
  biases and of the previous cell state (the last three lemmas).
-/
import Idealize.ShloMosaic.PureOps.Ideal
import Idealize.ShloMosaic.Lib.ValueIdx

noncomputable section

open scoped BigOperators

namespace Cert.Lstm

open Idealize.ShloMosaic Idealize.ShloMosaic.ValueIdx

/-- An a × b array of extended reals. -/
abbrev Mat (a b : Nat) : Type := (⟨2, ![a, b]⟩ : Shape).Idx → EReal
/-- A vector of a extended reals. -/
abbrev Row (a : Nat) : Type := (⟨1, ![a]⟩ : Shape).Idx → EReal

/-- A gate's pre-activation at row r, column j: the two products' entries added, then the bias. -/
def affine {n : Nat} (h x : Mat 64 2048) (Wh Wx : Mat 2048 n) (b : Row n) (r : Fin 64) (j : Fin n) : EReal :=
  ((∑ k : Fin 2048, h (ix2 r k) * Wh (ix2 k j)) + ∑ k : Fin 2048, x (ix2 r k) * Wx (ix2 k j)) + b (ix1 j)

/-- The new cell state: forget gate times the old state plus input gate times the candidate. -/
def cell {n : Nat} (h x : Mat 64 2048) (c : Mat 64 n) (Wfh Wfx : Mat 2048 n) (bf : Row n) (Wih Wix : Mat 2048 n) (bi : Row n)
    (Wch Wcx : Mat 2048 n) (bc : Row n) (r : Fin 64) (j : Fin n) : EReal :=
  Ideal.logistic (affine h x Wfh Wfx bf r j) * c (ix2 r j)
    + Ideal.logistic (affine h x Wih Wix bi r j) * Ideal.tanh (affine h x Wch Wcx bc r j)

/-- The new hidden state: output gate times tanh of the new cell state. -/
def hidden {n : Nat} (h x : Mat 64 2048) (c : Mat 64 n) (Wfh Wfx : Mat 2048 n) (bf : Row n) (Wih Wix : Mat 2048 n) (bi : Row n)
    (Wch Wcx : Mat 2048 n) (bc : Row n) (Woh Wox : Mat 2048 n) (bo : Row n) (r : Fin 64) (j : Fin n) : EReal :=
  Ideal.logistic (affine h x Woh Wox bo r j) * Ideal.tanh (cell h x c Wfh Wfx bf Wih Wix bi Wch Wcx bc r j)

/-- The projection of the previous hidden state. -/
def proj {n : Nat} (h : Mat 64 2048) (Wy : Mat 2048 n) (by_ : Row n) (r : Fin 64) (j : Fin n) : EReal :=
  (∑ k : Fin 2048, h (ix2 r k) * Wy (ix2 k j)) + by_ (ix1 j)

/-- The three results as arrays. -/
def cellArr {n : Nat} (h x : Mat 64 2048) (c : Mat 64 n) (Wfh Wfx : Mat 2048 n) (bf : Row n) (Wih Wix : Mat 2048 n) (bi : Row n)
    (Wch Wcx : Mat 2048 n) (bc : Row n) : Mat 64 n :=
  fun i => cell h x c Wfh Wfx bf Wih Wix bi Wch Wcx bc (i 0) (i 1)
def hiddenArr {n : Nat} (h x : Mat 64 2048) (c : Mat 64 n) (Wfh Wfx : Mat 2048 n) (bf : Row n) (Wih Wix : Mat 2048 n) (bi : Row n)
    (Wch Wcx : Mat 2048 n) (bc : Row n) (Woh Wox : Mat 2048 n) (bo : Row n) : Mat 64 n :=
  fun i => hidden h x c Wfh Wfx bf Wih Wix bi Wch Wcx bc Woh Wox bo (i 0) (i 1)
def projArr {n : Nat} (h : Mat 64 2048) (Wy : Mat 2048 n) (by_ : Row n) : Mat 64 n :=
  fun i => proj h Wy by_ (i 0) (i 1)

/-! ## A block of columns of the result depends on the same block of columns of the operands -/

/-- If W' and b' are the columns j ↦ φ j of W and b, the pre-activation over W', b' at column j is the one over W, b at
    column φ j. -/
theorem affine_cols {n n' : Nat} (φ : Fin n' → Fin n) (h x : Mat 64 2048) (Wh Wx : Mat 2048 n) (b : Row n)
    (Wh' Wx' : Mat 2048 n') (b' : Row n') (hWh : ∀ k j, Wh' (ix2 k j) = Wh (ix2 k (φ j)))
    (hWx : ∀ k j, Wx' (ix2 k j) = Wx (ix2 k (φ j))) (hb : ∀ j, b' (ix1 j) = b (ix1 (φ j))) (r : Fin 64) (j : Fin n') :
    affine h x Wh' Wx' b' r j = affine h x Wh Wx b r (φ j) := by
  unfold affine
  simp only [hWh, hWx, hb]

theorem proj_cols {n n' : Nat} (φ : Fin n' → Fin n) (h : Mat 64 2048) (Wy : Mat 2048 n) (by_ : Row n)
    (Wy' : Mat 2048 n') (by' : Row n') (hWy : ∀ k j, Wy' (ix2 k j) = Wy (ix2 k (φ j))) (hb : ∀ j, by' (ix1 j) = by_ (ix1 (φ j)))
    (r : Fin 64) (j : Fin n') : proj h Wy' by' r j = proj h Wy by_ r (φ j) := by
  unfold proj
  simp only [hWy, hb]

end Cert.Lstm

end
-- ==== Proof.PayloadAt.lean ====
/-
  The kernel body's three stored values, read at an index of the 64 × 256 output block, are the single-step LSTM
  cell's formulas over the block's contents.

  Each stored value is a chain of elementwise operations over matrix products into a zero accumulator and a bias row
  repeated over the 64 rows. Read at (r, q): a product of a 64 × 2048 and a 2048 × 256 array is the sum over k of
  a[r,k]·b[k,q]; the narrowing format change is the identity on extended reals; the bias row cast to 1 × 256 and
  repeated over the rows reads the bias at q. The kernel adds (h·Wh + x·Wx) + b in the order the specification does,
  so nothing beyond reading indices is needed.
-/
import proofs.«162687_j11879879542513_2_alg».proof.Proof.Gen.KernelIdeal.Skeleton
import proofs.«162687_j11879879542513_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lstm.Pay

open Idealize.ShloMosaic Idealize.ShloMosaic.ValueIdx Idealize.SL.Sem Cert.KernelIdeal Cert.KernelIdeal.Gen

/-- The dimension numbers of the kernel's nine products: the left operand's axis 1 contracted with the right's axis 0. -/
abbrev D : DotDims S64x2048 S2048x256 S64x256 := Cert.KernelIdeal.dot_S64x2048_S2048x256_S64x256_1_0_0_1_n_n

/-! ## The operand indices of a product at an output index and a contraction index -/

theorem lhs_0 (i : S64x256.Idx) (c : D.contr.Idx) : (D.lhsIdx i c 0).val = (i 0).val := by
  unfold DotDims.lhsIdx
  rw [dif_neg (show ¬(0 : Fin S64x2048.rank) ∈ D.lhsBatch by decide),
    dif_pos (show (0 : Fin S64x2048.rank) ∈ D.lhsNonContracting by decide)]
  rfl
theorem lhs_1 (i : S64x256.Idx) (c : D.contr.Idx) : (D.lhsIdx i c 1).val = (c ⟨0, by decide⟩).val :=
  D.lhsIdx_val_of_single rfl i c
theorem rhs_0 (i : S64x256.Idx) (c : D.contr.Idx) : (D.rhsIdx i c 0).val = (c ⟨0, by decide⟩).val :=
  D.rhsIdx_val_of_single rfl i c
theorem rhs_1 (i : S64x256.Idx) (c : D.contr.Idx) : (D.rhsIdx i c 1).val = (i 1).val := by
  unfold DotDims.rhsIdx
  rw [dif_neg (show ¬(1 : Fin S2048x256.rank) ∈ D.rhsBatch by decide),
    dif_pos (show (1 : Fin S2048x256.rank) ∈ D.rhsNonContracting by decide)]
  rfl

/-! ## A product into the zero accumulator, read at an index -/

/-- The product of a 64 × 2048 and a 2048 × 256 array into the zero accumulator is, at (r, q), Σ_k a[r,k]·b[k,q]. -/
theorem matmul_at (a : FVec Ideal S64x2048 .bf16) (b : FVec Ideal S2048x256 .bf16) (r : Fin 64) (q : Fin 256) :
    matmul D none a b (constant S64x256 .f32 0x00000000#32) (ix2 r q) = ∑ k : Fin 2048, a (ix2 r k) * b (ix2 k q) := by
  show FloatOps.matmul D none a b (constant S64x256 .f32 0x00000000#32) (ix2 r q) = _
  rw [Ideal.matmul_constant_zero_apply, ← Equiv.sum_comp (ValueIdx.contrEquiv1 D 2048 rfl rfl).symm]
  refine Finset.sum_congr rfl fun k _ => ?_
  have hk := ValueIdx.contrEquiv1_symm_val D 2048 rfl rfl k
  have el : D.lhsIdx (ix2 r q) ((ValueIdx.contrEquiv1 D 2048 rfl rfl).symm k) = ix2 r k := funext fun x => Fin.ext (by
    match x with
    | ⟨0, _⟩ => exact lhs_0 _ _
    | ⟨1, _⟩ => exact (lhs_1 _ _).trans hk)
  have er : D.rhsIdx (ix2 r q) ((ValueIdx.contrEquiv1 D 2048 rfl rfl).symm k) = ix2 k q := funext fun x => Fin.ext (by
    match x with
    | ⟨0, _⟩ => exact (rhs_0 _ _).trans hk
    | ⟨1, _⟩ => exact rhs_1 _ _)
  rw [el, er]

/-! ## The bias row repeated over the rows, read at an index -/

/-- A bias row cast to 1 × 256 and repeated over the 64 rows. -/
abbrev bias (v : Vec Ideal S256 .f32) : FVec Ideal S64x256 .f32 :=
  broadcastTo S64x256 (shapeCast S1x256 v shapeCasts_S256_S1x256) broadcasts_S1x256_S64x256

/-- It reads, at (r, q), the vector at q. -/
theorem bias_at (v : Vec Ideal S256 .f32) (r : Fin 64) (q : Fin 256) : bias v (ix2 r q) = v (ix1 q) :=
  (broadcastTo_1b_ab_apply _ _ r q).trans (shapeCast_a_1a_apply v _ 0 q)

/-! ## The kernel's product -/

/-- A product of the kernel: both operands narrowed, into the zero accumulator. -/
abbrev mm (a : Vec Ideal S64x2048 .f32) (b : Vec Ideal S2048x256 .f32) : FVec Ideal S64x256 .f32 :=
  matmul (F := Ideal) D none (truncf (F := Ideal) .bf16 a bitsLt_bf16_f32) (truncf (F := Ideal) .bf16 b bitsLt_bf16_f32)
    (constant (F := Ideal) S64x256 .f32 0x00000000#32)

/-- The narrowing is the identity on extended reals, so the kernel's product at (r, q) is Σ_k a[r,k]·b[k,q]. -/
theorem mm_at (a : Vec Ideal S64x2048 .f32) (b : Vec Ideal S2048x256 .f32) (r : Fin 64) (q : Fin 256) :
    mm a b (ix2 r q) = ∑ k : Fin 2048, a (ix2 r k) * b (ix2 k q) :=
  matmul_at (truncf (F := Ideal) .bf16 a bitsLt_bf16_f32) (truncf (F := Ideal) .bf16 b bitsLt_bf16_f32) r q

/-! ## A gate's pre-activation, read at an index -/

/-- The two products added, then the bias row: at (r, q) the specification's pre-activation. -/
theorem affine_at (v0 v2 : Vec Ideal S64x2048 .f32) (wh wx : Vec Ideal S2048x256 .f32) (b : Vec Ideal S256 .f32)
    (r : Fin 64) (q : Fin 256) :
    addf (F := Ideal) (addf (F := Ideal) (mm v0 wh) (mm v2 wx)) (bias b) (ix2 r q)
      = Cert.Lstm.affine (n := 256) v0 v2 wh wx b r q := by
  show mm v0 wh (ix2 r q) + mm v2 wx (ix2 r q) + bias b (ix2 r q) = _
  rw [mm_at, mm_at, bias_at]
  rfl

/-- The forget gate's pre-activation. -/
theorem pay6_at (v0 v2 : Vec Ideal S64x2048 .f32) (v5 v7 : Vec Ideal S2048x256 .f32) (v12 : Vec Ideal S256 .f32)
    (r : Fin 64) (q : Fin 256) :
    k0_pay6 (F := Ideal) v0 v2 v5 v7 v12 (ix2 r q) = Cert.Lstm.affine (n := 256) v0 v2 v5 v7 v12 r q :=
  affine_at v0 v2 v5 v7 v12 r q

/-- The input gate's pre-activation. -/
theorem pay7_at (v0 v2 : Vec Ideal S64x2048 .f32) (v16 v18 : Vec Ideal S2048x256 .f32) (v23 : Vec Ideal S256 .f32)
    (r : Fin 64) (q : Fin 256) :
    k0_pay7 (F := Ideal) v0 v2 v16 v18 v23 (ix2 r q) = Cert.Lstm.affine (n := 256) v0 v2 v16 v18 v23 r q :=
  affine_at v0 v2 v16 v18 v23 r q

/-- The candidate's pre-activation: its two products are computed before, the bias row added after. -/
theorem cand_at (v0 v2 : Vec Ideal S64x2048 .f32) (v27 v29 : Vec Ideal S2048x256 .f32) (v34 : Vec Ideal S256 .f32)
    (r : Fin 64) (q : Fin 256) :
    addf (F := Ideal) (addf (F := Ideal) (k0_pay8 (F := Ideal) v0 v27) (k0_pay9 (F := Ideal) v2 v29)) (bias v34) (ix2 r q)
      = Cert.Lstm.affine (n := 256) v0 v2 v27 v29 v34 r q :=
  affine_at v0 v2 v27 v29 v34 r q

/-! ## The three stored values -/

/-- The projection of the previous hidden state. -/
theorem pay3_at (v0 : Vec Ideal S64x2048 .f32) (v58 : Vec Ideal S2048x256 .f32) (v61 : Vec Ideal S256 .f32)
    (r : Fin 64) (q : Fin 256) :
    k0_pay3 (F := Ideal) (k0_pay4 v0) v58 v61 (ix2 r q) = Cert.Lstm.proj (n := 256) v0 v58 v61 r q := by
  show mm v0 v58 (ix2 r q) + bias v61 (ix2 r q) = _
  rw [mm_at, bias_at]
  rfl

/-- The new cell state. -/
theorem pay1_at (v0 v2 : Vec Ideal S64x2048 .f32) (v4 : Vec Ideal S64x256 .f32) (v5 v7 : Vec Ideal S2048x256 .f32)
    (v12 : Vec Ideal S256 .f32) (v16 v18 : Vec Ideal S2048x256 .f32) (v23 : Vec Ideal S256 .f32)
    (v27 v29 : Vec Ideal S2048x256 .f32) (v34 : Vec Ideal S256 .f32) (r : Fin 64) (q : Fin 256) :
    k0_pay1 (F := Ideal) v4 (k0_pay6 v0 v2 v5 v7 v12) (k0_pay7 v0 v2 v16 v18 v23) (k0_pay8 v0 v27) (k0_pay9 v2 v29) v34 (ix2 r q)
      = Cert.Lstm.cell (n := 256) v0 v2 v4 v5 v7 v12 v16 v18 v23 v27 v29 v34 r q := by
  show Ideal.logistic (k0_pay6 (F := Ideal) v0 v2 v5 v7 v12 (ix2 r q)) * v4 (ix2 r q)
        + Ideal.logistic (k0_pay7 (F := Ideal) v0 v2 v16 v18 v23 (ix2 r q))
          * Ideal.tanh (addf (F := Ideal) (addf (F := Ideal) (k0_pay8 (F := Ideal) v0 v27) (k0_pay9 (F := Ideal) v2 v29))
              (bias v34) (ix2 r q)) = _
  rw [pay6_at, pay7_at, cand_at]
  rfl

/-- The new hidden state. -/
theorem pay2_at (v0 v2 : Vec Ideal S64x2048 .f32) (v4 : Vec Ideal S64x256 .f32) (v5 v7 : Vec Ideal S2048x256 .f32)
    (v12 : Vec Ideal S256 .f32) (v16 v18 : Vec Ideal S2048x256 .f32) (v23 : Vec Ideal S256 .f32)
    (v27 v29 : Vec Ideal S2048x256 .f32) (v34 : Vec Ideal S256 .f32) (v38 v40 : Vec Ideal S2048x256 .f32)
    (v45 : Vec Ideal S256 .f32) (r : Fin 64) (q : Fin 256) :
    k0_pay2 (F := Ideal) (k0_pay4 v0) (k0_pay5 v2) v4 (k0_pay6 v0 v2 v5 v7 v12) (k0_pay7 v0 v2 v16 v18 v23) (k0_pay8 v0 v27)
        (k0_pay9 v2 v29) v34 v38 v40 v45 (ix2 r q)
      = Cert.Lstm.hidden (n := 256) v0 v2 v4 v5 v7 v12 v16 v18 v23 v27 v29 v34 v38 v40 v45 r q := by
  show Ideal.logistic (addf (F := Ideal) (addf (F := Ideal) (mm v0 v38) (mm v2 v40)) (bias v45) (ix2 r q))
        * Ideal.tanh (k0_pay1 (F := Ideal) v4 (k0_pay6 v0 v2 v5 v7 v12) (k0_pay7 v0 v2 v16 v18 v23) (k0_pay8 v0 v27)
            (k0_pay9 v2 v29) v34 (ix2 r q)) = _
  rw [affine_at, pay1_at]
  rfl

end Cert.Lstm.Pay

end
-- ==== Proof.KernelValue.lean ====
/-
  What the idealized kernel's program computes: the joined buffer ends holding, side by side, the specification's
  projection, new hidden state and new cell state of the argument arrays.

  At a grid point the three stored values, read at (r,q), are the specification's formulas over the input BLOCKS
  (the payload lemmas); a block of a weight, of a bias or of the previous cell state is the matching range of columns
  of its array, and the two resident blocks are whole arrays, so these are the formulas over the ARRAYS at column
  256·t + q — exactly the element of the result array that the write-back of point t puts there. The eight blocks
  cover each result array, so each ends holding the specification's array, and the joining line sets them side by side.
-/
import proofs.«162687_j11879879542513_2_alg».proof.Proof.KernelBlocks
import proofs.«162687_j11879879542513_2_alg».proof.Proof.PayloadAt
import proofs.«162687_j11879879542513_2_alg».proof.Proof.Spec

set_option maxRecDepth 16384

noncomputable section

open scoped BigOperators

namespace Cert.KernelIdeal.Val

open Cert.KernelIdeal Cert.KernelIdeal.Gen Cert.KernelIdeal.Frm Cert.KernelIdeal.Blk Cert.Lstm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The three result arrays of the specification, of the argument arrays as launched. -/
def yArr (c : Dev nD) : Mat 64 2048 := projArr (V m c main_arg1) (V m c main_arg15) (V m c main_arg16)
def hArr (c : Dev nD) : Mat 64 2048 := hiddenArr (V m c main_arg1) (V m c main_arg0) (V m c main_arg2) (V m c main_arg3) (V m c main_arg4) (V m c main_arg5) (V m c main_arg6) (V m c main_arg7) (V m c main_arg8) (V m c main_arg12) (V m c main_arg13) (V m c main_arg14) (V m c main_arg9) (V m c main_arg10) (V m c main_arg11)
def cArr (c : Dev nD) : Mat 64 2048 := cellArr (V m c main_arg1) (V m c main_arg0) (V m c main_arg2) (V m c main_arg3) (V m c main_arg4) (V m c main_arg5) (V m c main_arg6) (V m c main_arg7) (V m c main_arg8) (V m c main_arg12) (V m c main_arg13) (V m c main_arg14)

/-! ## What a point writes back is its block of the specification's array -/

theorem flushed_17 (c : Dev nD) (t : Fin cfg0.N) :
    (dats m 0 c).flushed 17 t = ((cfg0.win 17).blk t).view.read (Elt Ideal) (yArr m c) := by
  show (cfg0.win 17).cut (grid0.coords t) ((dats m 0 c).after 17 t) = _
  rw [after_17]
  unfold outY
  rw [View.canon_unit_zero hz2]
  simp only [View.ld_unit_zero (S := S64x2048) hz2, View.ld_unit_zero (S := S2048x256) hz2, View.ld_unit_zero (S := S256) hz1]
  funext j
  obtain ⟨r, q, rfl⟩ : ∃ (r : Fin 64) (q : Fin 256), j = ix2 r q := ⟨j 0, j 1, eq_ix2 j⟩
  show k0_pay3 (k0_pay4 (iblk m c 0 t)) (iblk m c 15 t) (iblk m c 16 t) (ix2 r q) = yArr m c (((cfg0.win 17).blk t).view.emb (ix2 r q))
  rw [emb_17]
  refine (Pay.pay3_at (iblk m c 0 t) (iblk m c 15 t) (iblk m c 16 t) r q).trans ?_
  show proj (n := 256) (iblk m c 0 t) (iblk m c 15 t) (iblk m c 16 t) r q = proj (n := 2048) (V m c main_arg1) (V m c main_arg15) (V m c main_arg16) r (col t q)
  unfold proj
  simp only [blk_0 m c t, blk_15 m c t, blk_16 m c t]

theorem flushed_19 (c : Dev nD) (t : Fin cfg0.N) :
    (dats m 0 c).flushed 19 t = ((cfg0.win 19).blk t).view.read (Elt Ideal) (cArr m c) := by
  show (cfg0.win 19).cut (grid0.coords t) ((dats m 0 c).after 19 t) = _
  rw [after_19]
  unfold outC
  rw [View.canon_unit_zero hz2]
  simp only [View.ld_unit_zero (S := S64x2048) hz2, View.ld_unit_zero (S := S64x256) hz2, View.ld_unit_zero (S := S2048x256) hz2, View.ld_unit_zero (S := S256) hz1]
  funext j
  obtain ⟨r, q, rfl⟩ : ∃ (r : Fin 64) (q : Fin 256), j = ix2 r q := ⟨j 0, j 1, eq_ix2 j⟩
  show k0_pay1 (iblk m c 2 t) (k0_pay6 (iblk m c 0 t) (iblk m c 1 t) (iblk m c 3 t) (iblk m c 4 t) (iblk m c 5 t)) (k0_pay7 (iblk m c 0 t) (iblk m c 1 t) (iblk m c 6 t) (iblk m c 7 t) (iblk m c 8 t)) (k0_pay8 (iblk m c 0 t) (iblk m c 9 t)) (k0_pay9 (iblk m c 1 t) (iblk m c 10 t)) (iblk m c 11 t) (ix2 r q) = cArr m c (((cfg0.win 19).blk t).view.emb (ix2 r q))
  rw [emb_19]
  refine (Pay.pay1_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r q).trans ?_
  show cell (n := 256) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r q = cell (n := 2048) (V m c main_arg1) (V m c main_arg0) (V m c main_arg2) (V m c main_arg3) (V m c main_arg4) (V m c main_arg5) (V m c main_arg6) (V m c main_arg7) (V m c main_arg8) (V m c main_arg12) (V m c main_arg13) (V m c main_arg14) r (col t q)
  unfold cell affine
  simp only [blk_0 m c t, blk_1 m c t, blk_2 m c t, blk_3 m c t, blk_4 m c t, blk_5 m c t, blk_6 m c t, blk_7 m c t, blk_8 m c t, blk_9 m c t, blk_10 m c t, blk_11 m c t]

theorem flushed_18 (c : Dev nD) (t : Fin cfg0.N) :
    (dats m 0 c).flushed 18 t = ((cfg0.win 18).blk t).view.read (Elt Ideal) (hArr m c) := by
  show (cfg0.win 18).cut (grid0.coords t) ((dats m 0 c).after 18 t) = _
  rw [after_18]
  unfold outH
  rw [View.canon_unit_zero hz2]
  simp only [View.ld_unit_zero (S := S64x2048) hz2, View.ld_unit_zero (S := S64x256) hz2, View.ld_unit_zero (S := S2048x256) hz2, View.ld_unit_zero (S := S256) hz1]
  funext j
  obtain ⟨r, q, rfl⟩ : ∃ (r : Fin 64) (q : Fin 256), j = ix2 r q := ⟨j 0, j 1, eq_ix2 j⟩
  show k0_pay2 (k0_pay4 (iblk m c 0 t)) (k0_pay5 (iblk m c 1 t)) (iblk m c 2 t) (k0_pay6 (iblk m c 0 t) (iblk m c 1 t) (iblk m c 3 t) (iblk m c 4 t) (iblk m c 5 t)) (k0_pay7 (iblk m c 0 t) (iblk m c 1 t) (iblk m c 6 t) (iblk m c 7 t) (iblk m c 8 t)) (k0_pay8 (iblk m c 0 t) (iblk m c 9 t)) (k0_pay9 (iblk m c 1 t) (iblk m c 10 t)) (iblk m c 11 t) (iblk m c 12 t) (iblk m c 13 t) (iblk m c 14 t) (ix2 r q) = hArr m c (((cfg0.win 18).blk t).view.emb (ix2 r q))
  rw [emb_18]
  refine (Pay.pay2_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r q).trans ?_
  show Cert.Lstm.hidden (n := 256) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r q = Cert.Lstm.hidden (n := 2048) (V m c main_arg1) (V m c main_arg0) (V m c main_arg2) (V m c main_arg3) (V m c main_arg4) (V m c main_arg5) (V m c main_arg6) (V m c main_arg7) (V m c main_arg8) (V m c main_arg12) (V m c main_arg13) (V m c main_arg14) (V m c main_arg9) (V m c main_arg10) (V m c main_arg11) r (col t q)
  unfold Cert.Lstm.hidden cell affine
  simp only [blk_0 m c t, blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t]

/-! ## The result arrays after the run -/

theorem final_17 (c : Dev nD) : (dats m 0 c).arrAt 17 cfg0.N = yArr m c :=
  (dats m 0 c).arrAt_eq_of_cover 17 (yArr m c) (fun t _ => flushed_17 m c t) cover_17
theorem final_18 (c : Dev nD) : (dats m 0 c).arrAt 18 cfg0.N = hArr m c :=
  (dats m 0 c).arrAt_eq_of_cover 18 (hArr m c) (fun t _ => flushed_18 m c t) cover_18
theorem final_19 (c : Dev nD) : (dats m 0 c).arrAt 19 cfg0.N = cArr m c :=
  (dats m 0 c).arrAt_eq_of_cover 19 (cArr m c) (fun t _ => flushed_19 m c t) cover_19

/-- The joined result. -/
def result (c : Dev nD) : (⟨S64x6144, .f32⟩ : BufTy).Contents (Elt Ideal) :=
  concatenate S64x6144 1 [⟨S64x2048, yArr m c⟩, ⟨S64x2048, hArr m c⟩, ⟨S64x2048, cArr m c⟩] concatenates_S64x2048_S64x2048_S64x2048_S64x6144_d1

/-- The run, read: the joined buffer ends at the specification's three arrays side by side, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨by
      rw [(h c).2 main_v1 (Pipeline.mem_restRefs_of main_v1 (by decide) (by decide)), tail_eq, final_17, final_18, final_19]; rfl,
      ((h c).1 1).trans (((dats m 0 c).arrAt_in 1 rfl _).trans (A_eq m c 1)),
        ((h c).1 0).trans (((dats m 0 c).arrAt_in 0 rfl _).trans (A_eq m c 0)),
        ((h c).1 2).trans (((dats m 0 c).arrAt_in 2 rfl _).trans (A_eq m c 2)),
        ((h c).1 3).trans (((dats m 0 c).arrAt_in 3 rfl _).trans (A_eq m c 3)),
        ((h c).1 4).trans (((dats m 0 c).arrAt_in 4 rfl _).trans (A_eq m c 4)),
        ((h c).1 5).trans (((dats m 0 c).arrAt_in 5 rfl _).trans (A_eq m c 5)),
        ((h c).1 6).trans (((dats m 0 c).arrAt_in 6 rfl _).trans (A_eq m c 6)),
        ((h c).1 7).trans (((dats m 0 c).arrAt_in 7 rfl _).trans (A_eq m c 7)),
        ((h c).1 8).trans (((dats m 0 c).arrAt_in 8 rfl _).trans (A_eq m c 8)),
        ((h c).1 12).trans (((dats m 0 c).arrAt_in 12 rfl _).trans (A_eq m c 12)),
        ((h c).1 13).trans (((dats m 0 c).arrAt_in 13 rfl _).trans (A_eq m c 13)),
        ((h c).1 14).trans (((dats m 0 c).arrAt_in 14 rfl _).trans (A_eq m c 14)),
        ((h c).1 9).trans (((dats m 0 c).arrAt_in 9 rfl _).trans (A_eq m c 9)),
        ((h c).1 10).trans (((dats m 0 c).arrAt_in 10 rfl _).trans (A_eq m c 10)),
        ((h c).1 11).trans (((dats m 0 c).arrAt_in 11 rfl _).trans (A_eq m c 11)),
        ((h c).1 15).trans (((dats m 0 c).arrAt_in 15 rfl _).trans (A_eq m c 15)),
        ((h c).1 16).trans (((dats m 0 c).arrAt_in 16 rfl _).trans (A_eq m c 16))⟩)
    (run_main m ρ)

end Cert.KernelIdeal.Val

end
-- ==== Proof.RefIsSpec.lean ====
/-
  The reference program computes the single-step LSTM cell of the specification.

  The reference lays the four gates' weights side by side — forget, input, candidate, output, 2048 columns each — and
  the four biases end to end, forms all four pre-activations with two products and one broadcast addition,
      (Σ_k h[r,k]·Wh[k,c]) + (Σ_k x[r,k]·Wx[k,c]) + b[c]      (c < 8192),
  and cuts the result back into four blocks of 2048 columns. Column 2048·p + j of the joined weights is column j of
  the p-th block, so each cut is one gate's pre-activation of the specification, with the additions in the same
  order. The logistic function appears as 1 / (1 + e^(-z)) with both ones given as the float word of 1.0, which is
  the extended real 1. From there the new cell state, the new hidden state and the projection are the specification's
  formulas term by term: nothing is rearranged and no finiteness is used.
-/
import proofs.«162687_j11879879542513_2_alg».proof.Proof.Spec
import proofs.«162687_j11879879542513_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Lstm.Ref

open Cert.ReferenceIdeal Cert.ReferenceIdeal.Gen Cert.ReferenceIdeal.Read
open Idealize.ShloMosaic Idealize.ShloMosaic.ValueIdx Idealize.ShloMosaic.StableHlo

/-- The float word of 1.0 is the extended real 1. -/
theorem one_f32 : Ideal.ofBits .f32 0x3F800000#32 = (1 : EReal) := by
  simp [Ideal.ofBits, Ideal.ieee, -EReal.coe_mul]; norm_num

/-! ## Four blocks of 2048 columns side by side: column 2048·p + j of the whole is column j of block p -/

section Cols
variable (w0 w1 w2 w3 : Mat 2048 2048)
  (h : Shape.Concatenates [S2048x2048, S2048x2048, S2048x2048, S2048x2048] S2048x8192 1) (k j : Fin 2048)

theorem cols_piece0 :
    concatenate S2048x8192 1 [⟨S2048x2048, w0⟩, ⟨S2048x2048, w1⟩, ⟨S2048x2048, w2⟩, ⟨S2048x2048, w3⟩] h
      (ix2 k (⟨j.val, by omega⟩ : Fin 8192)) = w0 (ix2 k j) :=
  concatenate_apply_piece (t := S2048x8192) 1 [⟨S2048x2048, w0⟩, ⟨S2048x2048, w1⟩, ⟨S2048x2048, w2⟩, ⟨S2048x2048, w3⟩] h _ 0 (by simp) S2048x2048 w0 rfl rfl 0 rfl (ix2 k j)
    (fun b hb => match b with | ⟨0, _⟩ => rfl | ⟨1, _⟩ => absurd rfl hb) (by show 0 + j.val = j.val; omega)

theorem cols_piece1 :
    concatenate S2048x8192 1 [⟨S2048x2048, w0⟩, ⟨S2048x2048, w1⟩, ⟨S2048x2048, w2⟩, ⟨S2048x2048, w3⟩] h
      (ix2 k (⟨2048 + j.val, by omega⟩ : Fin 8192)) = w1 (ix2 k j) :=
  concatenate_apply_piece (t := S2048x8192) 1 [⟨S2048x2048, w0⟩, ⟨S2048x2048, w1⟩, ⟨S2048x2048, w2⟩, ⟨S2048x2048, w3⟩] h _ 1 (by simp) S2048x2048 w1 rfl rfl 2048 rfl (ix2 k j)
    (fun b hb => match b with | ⟨0, _⟩ => rfl | ⟨1, _⟩ => absurd rfl hb) rfl

theorem cols_piece2 :
    concatenate S2048x8192 1 [⟨S2048x2048, w0⟩, ⟨S2048x2048, w1⟩, ⟨S2048x2048, w2⟩, ⟨S2048x2048, w3⟩] h
      (ix2 k (⟨4096 + j.val, by omega⟩ : Fin 8192)) = w2 (ix2 k j) :=
  concatenate_apply_piece (t := S2048x8192) 1 [⟨S2048x2048, w0⟩, ⟨S2048x2048, w1⟩, ⟨S2048x2048, w2⟩, ⟨S2048x2048, w3⟩] h _ 2 (by simp) S2048x2048 w2 rfl rfl 4096 rfl (ix2 k j)
    (fun b hb => match b with | ⟨0, _⟩ => rfl | ⟨1, _⟩ => absurd rfl hb) rfl

theorem cols_piece3 :
    concatenate S2048x8192 1 [⟨S2048x2048, w0⟩, ⟨S2048x2048, w1⟩, ⟨S2048x2048, w2⟩, ⟨S2048x2048, w3⟩] h
      (ix2 k (⟨6144 + j.val, by omega⟩ : Fin 8192)) = w3 (ix2 k j) :=
  concatenate_apply_piece (t := S2048x8192) 1 [⟨S2048x2048, w0⟩, ⟨S2048x2048, w1⟩, ⟨S2048x2048, w2⟩, ⟨S2048x2048, w3⟩] h _ 3 (by simp) S2048x2048 w3 rfl rfl 6144 rfl (ix2 k j)
    (fun b hb => match b with | ⟨0, _⟩ => rfl | ⟨1, _⟩ => absurd rfl hb) rfl
end Cols

/-! ## Four vectors of 2048 entries end to end: entry 2048·p + j of the whole is entry j of vector p -/

section Vecs
variable (b0 b1 b2 b3 : Row 2048) (h : Shape.Concatenates [S2048, S2048, S2048, S2048] S8192 0) (j : Fin 2048)

theorem vec_piece0 :
    concatenate S8192 0 [⟨S2048, b0⟩, ⟨S2048, b1⟩, ⟨S2048, b2⟩, ⟨S2048, b3⟩] h (ix1 (⟨j.val, by omega⟩ : Fin 8192)) = b0 (ix1 j) :=
  concatenate_apply_piece (t := S8192) 0 [⟨S2048, b0⟩, ⟨S2048, b1⟩, ⟨S2048, b2⟩, ⟨S2048, b3⟩] h _ 0 (by simp) S2048 b0 rfl rfl 0 rfl (ix1 j)
    (fun b hb => match b with | ⟨0, _⟩ => absurd rfl hb) (by show 0 + j.val = j.val; omega)

theorem vec_piece1 :
    concatenate S8192 0 [⟨S2048, b0⟩, ⟨S2048, b1⟩, ⟨S2048, b2⟩, ⟨S2048, b3⟩] h (ix1 (⟨2048 + j.val, by omega⟩ : Fin 8192)) = b1 (ix1 j) :=
  concatenate_apply_piece (t := S8192) 0 [⟨S2048, b0⟩, ⟨S2048, b1⟩, ⟨S2048, b2⟩, ⟨S2048, b3⟩] h _ 1 (by simp) S2048 b1 rfl rfl 2048 rfl (ix1 j)
    (fun b hb => match b with | ⟨0, _⟩ => absurd rfl hb) rfl

theorem vec_piece2 :
    concatenate S8192 0 [⟨S2048, b0⟩, ⟨S2048, b1⟩, ⟨S2048, b2⟩, ⟨S2048, b3⟩] h (ix1 (⟨4096 + j.val, by omega⟩ : Fin 8192)) = b2 (ix1 j) :=
  concatenate_apply_piece (t := S8192) 0 [⟨S2048, b0⟩, ⟨S2048, b1⟩, ⟨S2048, b2⟩, ⟨S2048, b3⟩] h _ 2 (by simp) S2048 b2 rfl rfl 4096 rfl (ix1 j)
    (fun b hb => match b with | ⟨0, _⟩ => absurd rfl hb) rfl

theorem vec_piece3 :
    concatenate S8192 0 [⟨S2048, b0⟩, ⟨S2048, b1⟩, ⟨S2048, b2⟩, ⟨S2048, b3⟩] h (ix1 (⟨6144 + j.val, by omega⟩ : Fin 8192)) = b3 (ix1 j) :=
  concatenate_apply_piece (t := S8192) 0 [⟨S2048, b0⟩, ⟨S2048, b1⟩, ⟨S2048, b2⟩, ⟨S2048, b3⟩] h _ 3 (by simp) S2048 b3 rfl rfl 6144 rfl (ix1 j)
    (fun b hb => match b with | ⟨0, _⟩ => absurd rfl hb) rfl
end Vecs

/-! ## The projection -/

theorem ref_proj (x1 : Mat 64 2048) (x15 : Mat 2048 2048) (x16 : Row 2048) :
    val_main_v40 (F := Ideal) x1 x15 x16 = Cert.Lstm.projArr x1 x15 x16 := by
  funext i
  obtain ⟨r, j, rfl⟩ : ∃ (r : Fin 64) (j : Fin 2048), i = ix2 r j := ⟨i 0, i 1, eq_ix2 i⟩
  have el : ∀ k : Fin 2048, lidx_main_v37 (ix2 r j) k = ix2 r k := fun k =>
    funext fun a => Fin.ext (by match a with | ⟨0, _⟩ => rfl | ⟨1, _⟩ => rfl)
  have er : ∀ k : Fin 2048, ridx_main_v37 (ix2 r j) k = ix2 k j := fun k =>
    funext fun a => Fin.ext (by match a with | ⟨0, _⟩ => rfl | ⟨1, _⟩ => rfl)
  have eb : idx_main_v38 (idx_main_v39 (ix2 r j)) = ix1 j :=
    funext fun a => Fin.ext (by match a with | ⟨0, _⟩ => rfl)
  rw [val_main_v40_apply, val_main_v37_apply, val_main_v39_apply, val_main_v38_apply]
  simp only [el, er, eb, Ideal.addf_def]
  rfl

/-! ## The four gates -/

section Gates
variable (x0 x1 x2 : Mat 64 2048) (x3 x4 : Mat 2048 2048) (x5 : Row 2048) (x6 x7 : Mat 2048 2048) (x8 : Row 2048)
  (x9 x10 : Mat 2048 2048) (x11 : Row 2048) (x12 x13 : Mat 2048 2048) (x14 : Row 2048)

/-- All four pre-activations side by side, before they are cut apart: row r, column c of 8192. -/
theorem pre_at (r : Fin 64) (c : Fin 8192) :
    val_main_v8 (F := Ideal) x0 x1 x3 x4 x5 x6 x7 x8 x9 x10 x11 x12 x13 x14 (ix2 r c)
      = ((∑ k : Fin 2048, x1 (ix2 r k) * val_main_v0 (F := Ideal) x3 x6 x9 x12 (ix2 k c))
          + ∑ k : Fin 2048, x0 (ix2 r k) * val_main_v1 (F := Ideal) x4 x7 x10 x13 (ix2 k c))
        + val_main_v2 (F := Ideal) x5 x8 x11 x14 (ix1 c) := by
  have el3 : ∀ k : Fin 2048, lidx_main_v3 (ix2 r c) k = ix2 r k := fun k => funext fun a => Fin.ext (by match a with | ⟨0, _⟩ => rfl | ⟨1, _⟩ => rfl)
  have er3 : ∀ k : Fin 2048, ridx_main_v3 (ix2 r c) k = ix2 k c := fun k => funext fun a => Fin.ext (by match a with | ⟨0, _⟩ => rfl | ⟨1, _⟩ => rfl)
  have el4 : ∀ k : Fin 2048, lidx_main_v4 (ix2 r c) k = ix2 r k := fun k => funext fun a => Fin.ext (by match a with | ⟨0, _⟩ => rfl | ⟨1, _⟩ => rfl)
  have er4 : ∀ k : Fin 2048, ridx_main_v4 (ix2 r c) k = ix2 k c := fun k => funext fun a => Fin.ext (by match a with | ⟨0, _⟩ => rfl | ⟨1, _⟩ => rfl)
  have eb : idx_main_v6 (idx_main_v7 (ix2 r c)) = ix1 c :=
    funext fun a => Fin.ext (by match a with | ⟨0, _⟩ => rfl)
  rw [val_main_v8_apply, val_main_v5_apply, val_main_v3_apply, val_main_v4_apply, val_main_v7_apply, val_main_v6_apply]
  simp only [el3, er3, el4, er4, eb, Ideal.addf_def]

/-- Columns 0 to 2048 of the pre-activations are the forget gate's. -/
theorem gate_f (r : Fin 64) (j : Fin 2048) :
    val_main_v9 (F := Ideal) x0 x1 x3 x4 x5 x6 x7 x8 x9 x10 x11 x12 x13 x14 (ix2 r j) = affine x1 x0 x3 x4 x5 r j := by
  have e : idx_main_v9 (ix2 r j) = ix2 r (⟨j.val, by omega⟩ : Fin 8192) := funext fun a => Fin.ext (by match a with | ⟨0, _⟩ => rfl | ⟨1, _⟩ => rfl)
  rw [val_main_v9_apply, e, pre_at]
  unfold val_main_v0 val_main_v1 val_main_v2 affine
  simp only [cols_piece0, vec_piece0]

/-- Columns 2048 to 4096 of the pre-activations are the input gate's. -/
theorem gate_i (r : Fin 64) (j : Fin 2048) :
    val_main_v10 (F := Ideal) x0 x1 x3 x4 x5 x6 x7 x8 x9 x10 x11 x12 x13 x14 (ix2 r j) = affine x1 x0 x6 x7 x8 r j := by
  have e : idx_main_v10 (ix2 r j) = ix2 r (⟨2048 + j.val, by omega⟩ : Fin 8192) := funext fun a => Fin.ext (by match a with | ⟨0, _⟩ => rfl | ⟨1, _⟩ => rfl)
  rw [val_main_v10_apply, e, pre_at]
  unfold val_main_v0 val_main_v1 val_main_v2 affine
  simp only [cols_piece1, vec_piece1]

/-- Columns 4096 to 6144 of the pre-activations are the candidate gate's. -/
theorem gate_g (r : Fin 64) (j : Fin 2048) :
    val_main_v11 (F := Ideal) x0 x1 x3 x4 x5 x6 x7 x8 x9 x10 x11 x12 x13 x14 (ix2 r j) = affine x1 x0 x12 x13 x14 r j := by
  have e : idx_main_v11 (ix2 r j) = ix2 r (⟨4096 + j.val, by omega⟩ : Fin 8192) := funext fun a => Fin.ext (by match a with | ⟨0, _⟩ => rfl | ⟨1, _⟩ => rfl)
  rw [val_main_v11_apply, e, pre_at]
  unfold val_main_v0 val_main_v1 val_main_v2 affine
  simp only [cols_piece2, vec_piece2]

/-- Columns 6144 to 8192 of the pre-activations are the output gate's. -/
theorem gate_o (r : Fin 64) (j : Fin 2048) :
    val_main_v12 (F := Ideal) x0 x1 x3 x4 x5 x6 x7 x8 x9 x10 x11 x12 x13 x14 (ix2 r j) = affine x1 x0 x9 x10 x11 r j := by
  have e : idx_main_v12 (ix2 r j) = ix2 r (⟨6144 + j.val, by omega⟩ : Fin 8192) := funext fun a => Fin.ext (by match a with | ⟨0, _⟩ => rfl | ⟨1, _⟩ => rfl)
  rw [val_main_v12_apply, e, pre_at]
  unfold val_main_v0 val_main_v1 val_main_v2 affine
  simp only [cols_piece3, vec_piece3]

/-- The printed quotient 1 / (1 + e^(-z)), with both ones given as float words, is the logistic function. -/
theorem logistic_words (z : EReal) :
    Ideal.div (Ideal.ofBits .f32 0x3F800000#32) (Ideal.ofBits .f32 0x3F800000#32 + Ideal.exp (-z)) = Ideal.logistic z := by
  rw [one_f32]; rfl

theorem sig_f (r : Fin 64) (j : Fin 2048) :
    val_main_v18 (F := Ideal) x0 x1 x3 x4 x5 x6 x7 x8 x9 x10 x11 x12 x13 x14 (ix2 r j) = Ideal.logistic (affine x1 x0 x3 x4 x5 r j) := by
  rw [val_main_v18_apply, val_main_v17_apply, val_main_cst_0_apply, val_main_v16_apply, val_main_v15_apply,
    val_main_cst_apply, val_main_v14_apply, val_main_v13_apply, gate_f]
  exact logistic_words _

theorem sig_i (r : Fin 64) (j : Fin 2048) :
    val_main_v24 (F := Ideal) x0 x1 x3 x4 x5 x6 x7 x8 x9 x10 x11 x12 x13 x14 (ix2 r j) = Ideal.logistic (affine x1 x0 x6 x7 x8 r j) := by
  rw [val_main_v24_apply, val_main_v23_apply, val_main_cst_2_apply, val_main_v22_apply, val_main_v21_apply,
    val_main_cst_1_apply, val_main_v20_apply, val_main_v19_apply, gate_i]
  exact logistic_words _

theorem sig_o (r : Fin 64) (j : Fin 2048) :
    val_main_v31 (F := Ideal) x0 x1 x3 x4 x5 x6 x7 x8 x9 x10 x11 x12 x13 x14 (ix2 r j) = Ideal.logistic (affine x1 x0 x9 x10 x11 r j) := by
  rw [val_main_v31_apply, val_main_v30_apply, val_main_cst_4_apply, val_main_v29_apply, val_main_v28_apply,
    val_main_cst_3_apply, val_main_v27_apply, val_main_v26_apply, gate_o]
  exact logistic_words _

/-- The new cell state at row r, column j. -/
theorem cell_at (r : Fin 64) (j : Fin 2048) :
    val_main_v34 (F := Ideal) x0 x1 x2 x3 x4 x5 x6 x7 x8 x9 x10 x11 x12 x13 x14 (ix2 r j)
      = cell x1 x0 x2 x3 x4 x5 x6 x7 x8 x12 x13 x14 r j := by
  rw [val_main_v34_apply, val_main_v32_apply, val_main_v33_apply, val_main_v25_apply, sig_f, sig_i, gate_g]
  rfl

theorem ref_cell :
    val_main_v34 (F := Ideal) x0 x1 x2 x3 x4 x5 x6 x7 x8 x9 x10 x11 x12 x13 x14
      = Cert.Lstm.cellArr x1 x0 x2 x3 x4 x5 x6 x7 x8 x12 x13 x14 := by
  funext i
  obtain ⟨r, j, rfl⟩ : ∃ (r : Fin 64) (j : Fin 2048), i = ix2 r j := ⟨i 0, i 1, eq_ix2 i⟩
  exact cell_at x0 x1 x2 x3 x4 x5 x6 x7 x8 x9 x10 x11 x12 x13 x14 r j

theorem ref_hidden :
    val_main_v36 (F := Ideal) x0 x1 x2 x3 x4 x5 x6 x7 x8 x9 x10 x11 x12 x13 x14
      = Cert.Lstm.hiddenArr x1 x0 x2 x3 x4 x5 x6 x7 x8 x12 x13 x14 x9 x10 x11 := by
  funext i
  obtain ⟨r, j, rfl⟩ : ∃ (r : Fin 64) (j : Fin 2048), i = ix2 r j := ⟨i 0, i 1, eq_ix2 i⟩
  rw [val_main_v36_apply, val_main_v35_apply, sig_o, cell_at]
  rfl

end Gates

end Cert.Lstm.Ref

end
-- ==== Proof.lean ====
/-
  A single-step LSTM cell, computed by a kernel that walks eight blocks of 256 columns, against the reference that
  lays the four gates' weights side by side and multiplies once.

  With h the previous hidden state, x the input, c the previous cell state, a gate's pre-activation at row r and
  column j is (Σ_k h[r,k]·Wh[k,j]) + (Σ_k x[r,k]·Wx[k,j]) + b[j]; the new cell state is σ(f)·c + σ(i)·tanh(g), the new
  hidden state σ(o)·tanh(new cell), the projection (Σ_k h[r,k]·Wy[k,j]) + by[j], and the result is the three arrays
  side by side (the specification: Proof/Spec.lean). On the extended reals the kernel's logistic IS 1/(1+e^(-z)), the
  expression the reference spells out, a change of float format is the identity, and a product into a zero accumulator
  is the plain sum; both programs add the two products first and the bias last, so the two sides agree term by term
  at every extended real: no law of arithmetic is used, and the precondition is never opened.

  The kernel side: the body's three stored values at an index are the specification's formulas over the blocks
  (Proof/PayloadAt.lean); the blocks are ranges of columns of the arrays and the eight result blocks tile each result
  array (Proof/KernelBlocks.lean); so each result array ends at the specification's array and the joining line sets
  them side by side (Proof/KernelValue.lean). The reference side: its three arrays before the last line are the
  specification's (Proof/RefIsSpec.lean). Both programs end with the same joining line, which is never opened. The
  frames of the two kernel programs (Proof/FrameBits.lean, Proof/FrameIdeal.lean) run the body once at a generic grid
  point; the reference's frame is its run with the result dropped; the idealization rewrote nothing.
-/
import proofs.«162687_j11879879542513_2_alg».proof.Defs
import proofs.«162687_j11879879542513_2_alg».proof.Proof.Gen.Kernel
import proofs.«162687_j11879879542513_2_alg».proof.Proof.Gen.KernelIdeal
import proofs.«162687_j11879879542513_2_alg».proof.Proof.Gen.ReferenceIdeal
import proofs.«162687_j11879879542513_2_alg».proof.Proof.Gen.Pre_finite_inputs
import proofs.«162687_j11879879542513_2_alg».proof.Proof.Gen.ReferenceIdeal.Run
import proofs.«162687_j11879879542513_2_alg».proof.Proof.Gen.ReferenceIdeal.Read
import proofs.«162687_j11879879542513_2_alg».proof.Proof.FrameBits
import proofs.«162687_j11879879542513_2_alg».proof.Proof.FrameIdeal
import proofs.«162687_j11879879542513_2_alg».proof.Proof.KernelValue
import proofs.«162687_j11879879542513_2_alg».proof.Proof.RefIsSpec

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's joined buffer ends at the specification's three arrays side
    by side (its run, read) and so does the reference's (its three arrays before the last line are the
    specification's); the last line is the same on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  unfold Cert.ReferenceIdeal.Read.val_main_v41 Cert.KernelIdeal.Val.result Cert.KernelIdeal.Val.yArr Cert.KernelIdeal.Val.hArr
    Cert.KernelIdeal.Val.cArr
  rw [Cert.Lstm.Ref.ref_proj, Cert.Lstm.Ref.ref_hidden, Cert.Lstm.Ref.ref_cell]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
